-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v21) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S4x2048x2048 : Shape := ⟨3, ![4, 2048, 2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn_part1 {F : FTy → Type} [FloatOps F] (main_arg3 : IVec S4x2048x2048 32) (main_v13 : IVec S_ 1) (main_v15 : IVec S4x2048x2048 1) (main_c_5 : IVec S_ 32) : IVec S_ 1 :=
  let main_v16 : IVec S4x2048x2048 32 := broadcastInDim S4x2048x2048 ![] bcast_S_S4x2048x2048 main_c_5
  let main_v17 : IVec S4x2048x2048 1 := cmpi .eq main_arg3 main_v16
  let main_v18 : IVec S4x2048x2048 1 := ori main_v15 main_v17
  let main_c_6 : IVec S_ 1 := constantI S_ 1 1#1
  let main_v19 : IVec S_ 1 := (fun x v => Host.reduce IntOp.andi x v reducesTo_S4x2048x2048_S_d0_1_2 h_S_) main_v18 main_c_6
  let main_v20 : IVec S_ 1 := andi main_v13 main_v19
  main_v20

def fn {F : FTy → Type} [FloatOps F] (main_arg0 : FVec F S4x2048 .f32) (main_arg1 : FVec F S4x2048x2048 .f32) (main_arg2 : FVec F S4x2048 .f32) (main_arg3 : IVec S4x2048x2048 32) (main_arg4 : IVec S4x2048x2048 32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_c_4 : IVec S_ 32 := constantI S_ 32 0#32
  let main_v14 : IVec S4x2048x2048 32 := broadcastInDim S4x2048x2048 ![] bcast_S_S4x2048x2048 main_c_4
  let main_v15 : IVec S4x2048x2048 1 := cmpi .eq main_arg3 main_v14
  let main_c_5 : IVec S_ 32 := constantI S_ 32 1#32
  fn_part1 (F := F) main_arg3 main_v13 main_v15 main_c_5
-- ==== Kernel.lean ====
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S4x1x128 : Shape := ⟨3, ![4, 1, 128]⟩
abbrev S1x512x1024 : Shape := ⟨3, ![1, 512, 1024]⟩
abbrev S1x512x1 : Shape := ⟨3, ![1, 512, 1]⟩
abbrev S1x1x1024 : Shape := ⟨3, ![1, 1, 1024]⟩
abbrev S1x1x128 : Shape := ⟨3, ![1, 1, 128]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 38
  | .vmem => 20
  | .smem => 0
  | _ => 0

abbrev bufTy : (tb : Table) → Fin (tcTables nBuf tb) → BufTy
  | .hbm, ⟨0, _⟩ => ⟨S4x2048, .f32⟩
  | .hbm, ⟨1, _⟩ => ⟨S4x2048x2048, .f32⟩
  | .hbm, ⟨2, _⟩ => ⟨S4x2048, .f32⟩
  | .hbm, ⟨3, _⟩ => ⟨S4x2048x2048, .i32⟩
  | .hbm, ⟨4, _⟩ => ⟨S4x2048x2048, .i32⟩
  | .hbm, ⟨5, _⟩ => ⟨S4x2048x1, .f32⟩
  | .hbm, ⟨6, _⟩ => ⟨S4x1x2048, .f32⟩
  | .hbm, ⟨7, _⟩ => ⟨S4x2048x1, .f32⟩
  | .hbm, ⟨8, _⟩ => ⟨S4x1x2048, .f32⟩
  | .hbm, ⟨9, _⟩ => ⟨S4x1x128, .f32⟩
  | .hbm, ⟨10, _⟩ => ⟨S4x1x128, .f32⟩
  | .hbm, ⟨11, _⟩ => ⟨S4x1x128, .f32⟩
  | .hbm, ⟨12, _⟩ => ⟨S4x1x1, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S4x1x1, .f32⟩
  | .hbm, ⟨17, _⟩ => ⟨S4, .f32⟩
  | .hbm, ⟨18, _⟩ => ⟨S_, .f32⟩
  | .hbm, ⟨19, _⟩ => ⟨S_, .f32⟩
  | .hbm, ⟨20, _⟩ => ⟨S4x1x1, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .i32⟩
  | .local _ .vmem, ⟨3, _⟩ => ⟨S1x512x1024, .i32⟩
  | .local _ .vmem, ⟨4, _⟩ => ⟨S1x512x1024, .i32⟩
  | .local _ .vmem, ⟨5, _⟩ => ⟨S1x512x1024, .i32⟩
  | .local _ .vmem, ⟨6, _⟩ => ⟨S1x512x1, .f32⟩
  | .local _ .vmem, ⟨7, _⟩ => ⟨S1x512x1, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1, .f32⟩
  | .local _ .vmem, ⟨11, _⟩ => ⟨S1x512x1, .f32⟩
  | .local _ .vmem, ⟨12, _⟩ => ⟨S1x1x1024, .f32⟩
  | .local _ .vmem, ⟨13, _⟩ => ⟨S1x1x1024, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

class Facts₀ : Prop where
  shapeCasts_S4x2048_S4x2048x1 : S4x2048.ShapeCasts S4x2048x1
  shapeCasts_S4x2048_S4x1x2048 : S4x2048.ShapeCasts S4x1x2048
  inb_S1x1x128_S1x1x128_0_0_0 : ∀ a, (![0, 0, 0] : Fin 3 → Nat) a + S1x1x128.size a ≤ S1x1x128.size a
  h_S1x1x128 : 0 < S1x1x128.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  iota_S512x1024_d0_w32 : S512x1024.Iotas .tc 32 [0]
  iota_S512x1024_d1_w32 : S512x1024.Iotas .tc 32 [1]
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x2048.size a
  hwx0_0 : ∀ i : grid0.Coords, EltTy.bits .f32 = 32 ∨ (Rect.block (s := S4x2048x2048) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x2048x2048.size a
  hwx0_1 : ∀ i : grid0.Coords, EltTy.bits .i32 = 32 ∨ (Rect.block (s := S4x2048x2048) S1x512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x2048x2048.size a
  hwx0_2 : ∀ i : grid0.Coords, EltTy.bits .i32 = 32 ∨ (Rect.block (s := S4x2048x2048) S1x512x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S4x2048x1.size a
  hwx0_3 : ∀ i : grid0.Coords, EltTy.bits .f32 = 32 ∨ (Rect.block (s := S4x2048x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S4x1x2048.size a
  hwx0_4 : ∀ i : grid0.Coords, EltTy.bits .f32 = 32 ∨ (Rect.block (s := S4x1x2048) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S4x2048x1.size a
  hwx0_5 : ∀ i : grid0.Coords, EltTy.bits .f32 = 32 ∨ (Rect.block (s := S4x2048x1) S1x512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S4x1x2048.size a
  hwx0_6 : ∀ i : grid0.Coords, EltTy.bits .f32 = 32 ∨ (Rect.block (s := S4x1x2048) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S4x1x128.size a
  hwx0_7 : ∀ i : grid0.Coords, EltTy.bits .f32 = 32 ∨ (Rect.block (s := S4x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S4x1x128.size a
  hwx0_8 : ∀ i : grid0.Coords, EltTy.bits .f32 = 32 ∨ (Rect.block (s := S4x1x128) S1x1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S4x1x128.size a
  hwx0_9 : ∀ i : grid0.Coords, EltTy.bits .f32 = 32 ∨ (Rect.block (s := S4x1x128) S1x1x128.size (cc0_transform_9 i) (hinb0_9 i)).WholeWords (EltTy.packing .f32)

variable [Facts₀]

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1x1x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1x1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩

abbrev nBuf : Space → Nat
  | .hbm => 101
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048x2048, .f32⟩
  | .hbm, ⟨2, _⟩ => ⟨S4x2048, .f32⟩
  | .hbm, ⟨3, _⟩ => ⟨S4x2048x2048, .i32⟩
  | .hbm, ⟨4, _⟩ => ⟨S4x2048x2048, .i32⟩
  | .hbm, ⟨5, _⟩ => ⟨S4x2048x1, .f32⟩
  | .hbm, ⟨6, _⟩ => ⟨S4x1x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x1, .f32⟩
  | .hbm, ⟨11, _⟩ => ⟨S4x1x2048, .f32⟩
  | .hbm, ⟨12, _⟩ => ⟨S4x2048x2048, .f32⟩
  | .hbm, ⟨13, _⟩ => ⟨S4x2048x2048, .f32⟩
  | .hbm, ⟨14, _⟩ => ⟨S4x2048x2048, .i1⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048x2048, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048, .i32⟩
  | .hbm, ⟨49, _⟩ => ⟨S1x2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i1⟩
  | .hbm, ⟨57, _⟩ => ⟨S_, .i32⟩
  | .hbm, ⟨58, _⟩ => ⟨S2048x2048, .i32⟩
  | .hbm, ⟨59, _⟩ => ⟨S2048x2048, .i32⟩
  | .hbm, ⟨60, _⟩ => ⟨S_, .i32⟩
  | .hbm, ⟨61, _⟩ => ⟨S_, .i32⟩
  | .hbm, ⟨62, _⟩ => ⟨S2048x2048, .i32⟩
  | .hbm, ⟨63, _⟩ => ⟨S2048x2048, .i32⟩
  | .hbm, ⟨64, _⟩ => ⟨S2048x2048, .f32⟩
  | .hbm, ⟨65, _⟩ => ⟨S1x2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S2048x2048, .f32⟩
  | .hbm, ⟨71, _⟩ => ⟨S2048x2048, .f32⟩
  | .hbm, ⟨72, _⟩ => ⟨S4x1x2048, .f32⟩
  | .hbm, ⟨73, _⟩ => ⟨S4x2048x1, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S_, .f32⟩
  | .hbm, ⟨78, _⟩ => ⟨S4x2048x2048, .f32⟩
  | .hbm, ⟨79, _⟩ => ⟨S4x2048x2048, .f32⟩
  | .hbm, ⟨80, _⟩ => ⟨S_, .f32⟩
  | .hbm, ⟨81, _⟩ => ⟨S4x2048x2048, .f32⟩
  | .hbm, ⟨82, _⟩ => ⟨S4x2048x2048, .f32⟩
  | .hbm, ⟨83, _⟩ => ⟨S_, .f32⟩
  | .hbm, ⟨84, _⟩ => ⟨S2048x2048, .f32⟩
  | .hbm, ⟨85, _⟩ => ⟨S_, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_c_8 : Ref sig .tc := ⟨.hbm, 60, rfl⟩
abbrev main_call1_v0 : Ref sig .tc := ⟨.hbm, 61, rfl⟩
abbrev main_call1_v1 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_call2_cst : Ref sig .tc := ⟨.hbm, 80, rfl⟩
abbrev main_call2_v0 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  slices_S4x2048x2048_S1x2048x2048_0_0_0 : S4x2048x2048.Slices ![0, 0, 0] S1x2048x2048
  shapeCasts_S1x2048x2048_S2048x2048 : S1x2048x2048.ShapeCasts S2048x2048
  reducesTo_S4x2048x2048_S2048x2048_d0 : S4x2048x2048.ReducesTo [0] S2048x2048
  reducesTo_S2048x2048_S_d0_1 : S2048x2048.ReducesTo [0, 1] S_

variable [Facts₀]

class Facts : Prop extends Facts₀ where

variable [Facts]
-- ==== Proof.KOut.lean ====
/-
  What one grid point leaves in each of the three accumulators. The body adds, to whatever the accumulator's block
  holds, the point's partial sum broadcast along the 128 lanes; at the first point of a row tile (second and third grid
  coordinates both zero) it first stores zeros, so it leaves zero plus the partial. The partials are the body's own
  arithmetic on the point's input blocks: the ordering hinge summed over the 512 × 1024 tile, the negated clamped
  logarithm summed over the tile, and the weighted transitivity hinge summed over the tile.
-/
import proofs.«118790_j42803644072824_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KOut

open Cert.KernelIdeal Cert.KernelIdeal.Gen

variable {F : FTy → Type} [FloatOps F]

theorem hz3 : (![0, 0, 0] : Fin 3 → Nat) = fun _ => 0 := funext fun a => by fin_cases a <;> rfl

/-- The ordering partial of a point: from the two column blocks and two row blocks of the predicted and target times. -/
def pOrd (x3 : Vec F S1x512x1 .f32) (x4 : Vec F S1x1x1024 .f32) (x5 : Vec F S1x512x1 .f32) (x6 : Vec F S1x1x1024 .f32) : FVec F S1x1 .f32 :=
  k0_pay13 (k0_pay12 x3 x4 x5 x6) (FloatOps.ofBits .f32 0#32)

/-- The causality partial of a point: from the probability tile and the label tile. -/
def pCaus (x0 : Vec F S1x512x1024 .f32) (x1 : Vec F S1x512x1024 .i32) : FVec F S1x1 .f32 :=
  k0_pay14 (k0_pay7 x0) (k0_pay8 x1)

/-- The transitivity accumulation of a point onto `xo`: from the tile's coordinates, the precedence tile and the
    predicted times' column and row blocks. -/
def accTrans (i : grid0.Coords) (x2 : Vec F S1x512x1024 .i32) (x3 : Vec F S1x512x1 .f32) (x4 : Vec F S1x1x1024 .f32)
    (xo : Vec F S1x1x128 .f32) : FVec F S1x1x128 .f32 :=
  k0_pay3 (k0_pay15 (BitVec.ofNat 32 (i 0).val) (BitVec.ofNat 32 (i 1).val) (k0_pay9 x2)) (k0_pay16 (k0_pay10 x3) (k0_pay11 x4)) k0_pay17 xo

theorem out_B_7 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : ¬cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) (xo7 xo8 xo9 : Vec F S1x1x128 .f32) :
    out0_B_7 c i arg3 harg3 arg4 harg4 arg5 harg5 arg6 harg6 arg7 harg7 arg8 harg8 arg9 harg9 arg10 harg10 arg11 harg11 arg12 harg12 hc x0 x1 x2 x3 x4 x5 x6 xo7 xo8 xo9 = k0_pay1 (pOrd x3 x4 x5 x6) xo7 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc x0 x1 x2 x3 x4 x5 x6 xo7 xo8 xo9)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

theorem out_B_8 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : ¬cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) (xo7 xo8 xo9 : Vec F S1x1x128 .f32) :
    out0_B_8 c i arg3 harg3 arg4 harg4 arg5 harg5 arg6 harg6 arg7 harg7 arg8 harg8 arg9 harg9 arg10 harg10 arg11 harg11 arg12 harg12 hc x0 x1 x2 x3 x4 x5 x6 xo7 xo8 xo9 = k0_pay2 (pCaus x0 x1) xo8 := by
  unfold out0_B_8
  rw [View.read_writes_eq_canon _ _ _ (cover0_B_8 c i arg3 harg3 arg4 harg4 arg5 harg5 arg6 harg6 arg7 harg7 arg8 harg8 arg9 harg9 arg10 harg10 arg11 harg11 arg12 harg12 hc x0 x1 x2 x3 x4 x5 x6 xo7 xo8 xo9)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

theorem out_B_9 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : ¬cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) (xo7 xo8 xo9 : Vec F S1x1x128 .f32) :
    out0_B_9 c i arg3 harg3 arg4 harg4 arg5 harg5 arg6 harg6 arg7 harg7 arg8 harg8 arg9 harg9 arg10 harg10 arg11 harg11 arg12 harg12 hc x0 x1 x2 x3 x4 x5 x6 xo7 xo8 xo9 = accTrans i x2 x3 x4 xo9 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 hc x0 x1 x2 x3 x4 x5 x6 xo7 xo8 xo9)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

theorem out_A_7 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) :
    out0_A_7 c i arg3 harg3 arg4 harg4 arg5 harg5 arg6 harg6 arg7 harg7 arg8 harg8 arg9 harg9 arg10 harg10 arg11 harg11 arg12 harg12 hc x0 x1 x2 x3 x4 x5 x6 = k0_pay1 (pOrd x3 x4 x5 x6) k0_pay4 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

theorem out_A_8 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) :
    out0_A_8 c i arg3 harg3 arg4 harg4 arg5 harg5 arg6 harg6 arg7 harg7 arg8 harg8 arg9 harg9 arg10 harg10 arg11 harg11 arg12 harg12 hc x0 x1 x2 x3 x4 x5 x6 = k0_pay2 (pCaus x0 x1) k0_pay5 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

theorem out_A_9 (c : Dev nD) (i : grid0.Coords) (arg3 : Memref sig .tc .vmem S1x512x1024 .f32) (harg3 : arg3.IsWhole) (arg4 : Memref sig .tc .vmem S1x512x1024 .i32) (harg4 : arg4.IsWhole) (arg5 : Memref sig .tc .vmem S1x512x1024 .i32) (harg5 : arg5.IsWhole) (arg6 : Memref sig .tc .vmem S1x512x1 .f32) (harg6 : arg6.IsWhole) (arg7 : Memref sig .tc .vmem S1x1x1024 .f32) (harg7 : arg7.IsWhole) (arg8 : Memref sig .tc .vmem S1x512x1 .f32) (harg8 : arg8.IsWhole) (arg9 : Memref sig .tc .vmem S1x1x1024 .f32) (harg9 : arg9.IsWhole) (arg10 : Memref sig .tc .vmem S1x1x128 .f32) (harg10 : arg10.IsWhole) (arg11 : Memref sig .tc .vmem S1x1x128 .f32) (harg11 : arg11.IsWhole) (arg12 : Memref sig .tc .vmem S1x1x128 .f32) (harg12 : arg12.IsWhole) (hc : cond0_0 i) (x0 : Vec F S1x512x1024 .f32) (x1 : Vec F S1x512x1024 .i32) (x2 : Vec F S1x512x1024 .i32) (x3 : Vec F S1x512x1 .f32) (x4 : Vec F S1x1x1024 .f32) (x5 : Vec F S1x512x1 .f32) (x6 : Vec F S1x1x1024 .f32) :
    out0_A_9 c i arg3 harg3 arg4 harg4 arg5 harg5 arg6 harg6 arg7 harg7 arg8 harg8 arg9 harg9 arg10 harg10 arg11 harg11 arg12 harg12 hc x0 x1 x2 x3 x4 x5 x6 = accTrans i x2 x3 x4 k0_pay6 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 hc x0 x1 x2 x3 x4 x5 x6)]
  unfold kernelRun0_A
  dsimp only
  sl_unfold_words
  rw [View.canon_cons_unit_zero (S := S1x1x128) hz3, View.readCov_unit_zero (S := S1x1x128) _ hz3]
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1x128) hz3, View.ld_unit_zero (S := S1x512x1) hz3, View.ld_unit_zero (S := S1x1x1024) hz3, View.ld_unit_zero (S := S1x512x1024) hz3]
  rfl

end Cert.KernelIdeal.KOut

end
-- ==== Proof.Spec.lean ====
/-
  The four results as plain sums over the extended reals, index by index, with no program in sight.

  Inputs: predicted and target times `pt`, `tt` (batch × position), predicted causal probabilities `pc`, and the
  integer labels `tc` (causal target) and `tp` (precedence target), each batch × position × position.

  * ordering: the hinge `max (1/2 − (pt b i − pt b j)·[tt b i < tt b j]) 0`, summed over every (b, i, j), over 2^24;
  * causality: minus the clamped logarithm `max (log q) (−100)` of `q = pc` where the label is nonzero and
    `q = 1 − pc` where it is zero, summed over every (b, i, j), over 2^24;
  * transitivity: the weight `w i k = (k − i − 1)·[k − i ≥ 2]·[tp 0 i k > 0]` times the hinge
    `max (1/10 − (pt b k − pt b i)) 0`, summed over every (b, i, k), over 4·C(2048, 3);
  * the total: 1·ordering + 0.8·causality + 0.6·transitivity (the three weights as their binary words).

  Also here: a sum over `Fin (a·n)` is the double sum over `Fin a × Fin n` at `n·q + r`, which is how a tiling of an
  axis re-indexes a sum.
-/
import Idealize.ShloMosaic.PureOps.Ideal
import Idealize.ShloMosaic.Lib.ValueIdx

noncomputable section

namespace Cert.Spec

open Idealize.ShloMosaic Idealize.ShloMosaic.ValueIdx

/-- batch × position -/
abbrev ST : Shape := ⟨2, ![4, 2048]⟩
/-- batch × position × position -/
abbrev SC : Shape := ⟨3, ![4, 2048, 2048]⟩

/-- A one-bit word as the number 0 or 1. -/
def ind (b : BitVec 1) : EReal := ((b.toNat : ℝ) : EReal)

/-- The difference of two positions as a 32-bit word: `k − i`. -/
def gap (i k : Fin 2048) : BitVec 32 := BitVec.ofNat 32 k.val - BitVec.ofNat 32 i.val

/-- How many positions lie strictly between `i` and `k`, when there is at least one; else zero. -/
def mult (i k : Fin 2048) : EReal :=
  Scalar.select (IntOp.cmpi .sge (gap i k) 2#32) ((((gap i k - 1#32).toInt : ℝ) : EReal)) 0

/-- The logarithm clamped below at −100. -/
def clampLog (x : EReal) : EReal := max (Ideal.log x) (Ideal.ofBits .f32 0xC2C80000#32)

variable (pt tt : ST.Idx → EReal) (pc : SC.Idx → EReal) (tc tp : SC.Idx → BitVec 32)

/-- The ordering hinge at (b, i, j). -/
def ordE (b : Fin 4) (i j : Fin 2048) : EReal :=
  max (Ideal.ofBits .f32 0x3F000000#32
        - (pt (ix2 b i) - pt (ix2 b j)) * ind (Ideal.cmp .olt (tt (ix2 b i)) (tt (ix2 b j))))
    (Ideal.ofBits .f32 0x00000000#32)

/-- The clamped log-likelihood of the label at (b, i, j). -/
def causE (b : Fin 4) (i j : Fin 2048) : EReal :=
  clampLog (if tc (ix3 b i j) = 0#32 then Ideal.ofBits .f32 0x3F800000#32 - pc (ix3 b i j) else pc (ix3 b i j))

/-- The transitivity weight of the pair (i, k): the multiplicity where batch 0's precedence label is positive, else zero. -/
def wE (i k : Fin 2048) : EReal := mult i k * ind (IntOp.cmpi .sgt (tp (ix3 (0 : Fin 4) i k)) 0#32)

/-- The transitivity hinge at (b, i, k). -/
def violE (b : Fin 4) (i k : Fin 2048) : EReal :=
  max (Ideal.ofBits .f32 0x3DCCCCCD#32 - (pt (ix2 b k) - pt (ix2 b i))) (Ideal.ofBits .f32 0x00000000#32)

def ordSum : EReal := ∑ b : Fin 4, ∑ i : Fin 2048, ∑ j : Fin 2048, ordE pt tt b i j
def causSum : EReal := ∑ b : Fin 4, ∑ i : Fin 2048, ∑ j : Fin 2048, -causE pc tc b i j
def transSum : EReal := ∑ b : Fin 4, ∑ i : Fin 2048, ∑ k : Fin 2048, wE tp i k * violE pt b i k

/-- The ordering loss. -/
def ordLoss : EReal := Ideal.div (ordSum pt tt) (Ideal.ofBits .f32 0x4B800000#32)
/-- The causality loss. -/
def causLoss : EReal := Ideal.div (causSum pc tc) (Ideal.ofBits .f32 0x4B800000#32)
/-- The transitivity loss. -/
def transLoss : EReal := Ideal.div (transSum pt tp) (Ideal.ofBits .f32 0x4FAA6AB0#32)
/-- The weighted total. -/
def totalLoss : EReal :=
  Ideal.ofBits .f32 0x3F800000#32 * ordLoss pt tt + Ideal.ofBits .f32 0x3F4CCCCD#32 * causLoss pc tc
    + Ideal.ofBits .f32 0x3F19999A#32 * transLoss pt tp

/-- A sum over `Fin (a·n)` is the double sum over quotient and remainder at `n·q + r`. -/
theorem sum_fin_mul {M : Type*} [AddCommMonoid M] (a n : Nat) (f : Fin (a * n) → M) :
    ∑ x : Fin (a * n), f x
      = ∑ q : Fin a, ∑ r : Fin n, f ⟨n * q.val + r.val, by
          have hq := q.isLt; have hr := r.isLt
          calc n * q.val + r.val < n * q.val + n := by omega
            _ = n * (q.val + 1) := by ring
            _ ≤ n * a := Nat.mul_le_mul_left _ hq
            _ = a * n := Nat.mul_comm _ _⟩ := by
  rw [← Fintype.sum_prod_type']
  refine (Fintype.sum_equiv finProdFinEquiv _ _ fun x => ?_).symm
  congr 1
  apply Fin.ext
  show n * x.1.val + x.2.val = x.2.val + n * x.1.val
  omega

end Cert.Spec

end
-- ==== Proof.Tiles.lean ====
/-
  The tiling of the 2048 positions: a row position is `512·q + r` with `q < 4`, `r < 512`; a column position is
  `1024·q + c` with `q < 2`, `c < 1024`. A sum over all positions is the double sum over tile and offset.
-/
import proofs.«118790_j42803644072824_2_alg».proof.Proof.Spec

noncomputable section

namespace Cert.Tiles

/-- Row `r` of row tile `q`. -/
def rowOf (q : Fin 4) (r : Fin 512) : Fin 2048 := ⟨512 * q.val + r.val, by have := q.isLt; have := r.isLt; omega⟩

/-- Column `c` of column tile `q`. -/
def colOf (q : Fin 2) (c : Fin 1024) : Fin 2048 := ⟨1024 * q.val + c.val, by have := q.isLt; have := c.isLt; omega⟩

theorem rowOf_val (q : Fin 4) (r : Fin 512) : (rowOf q r).val = 512 * q.val + r.val := rfl
theorem colOf_val (q : Fin 2) (c : Fin 1024) : (colOf q c).val = 1024 * q.val + c.val := rfl

/-- A sum over the 2048 positions is the sum over the four row tiles of the sums over their 512 rows. -/
theorem sum_rows {M : Type*} [AddCommMonoid M] (g : Fin 2048 → M) :
    ∑ i : Fin 2048, g i = ∑ q : Fin 4, ∑ r : Fin 512, g (rowOf q r) :=
  Cert.Spec.sum_fin_mul 4 512 g

/-- A sum over the 2048 positions is the sum over the two column tiles of the sums over their 1024 columns. -/
theorem sum_cols {M : Type*} [AddCommMonoid M] (g : Fin 2048 → M) :
    ∑ j : Fin 2048, g j = ∑ q : Fin 2, ∑ c : Fin 1024, g (colOf q c) :=
  Cert.Spec.sum_fin_mul 2 1024 g

end Cert.Tiles

end
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«118790_j42803644072824_2_alg».proof.Proof.LibLift2
import proofs.«118790_j42803644072824_2_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.KPay.lean ====
/-
  The kernel body's arithmetic, read at an index, at the ideal float values (every float an extended real): each
  value the body stores, as plain sums over the 512 × 1024 tile of one grid point. No memory and no program appear
  here, only vectors.

  * The three accumulator updates add, to every one of the 128 lanes of the block they read, one number: the
    point's partial sum.
  * A partial sum is printed as a sum over the columns (giving one number per row), kept as a column, then a sum
    over the rows, kept as a 1 × 1 matrix: at its one index it is the double sum over rows and columns.
  * The ordering partial sums the hinge max (1/2 − (p_r − p_c)·[t_r < t_c]) 0; the comparison bit enters as a
    one-bit word widened to 32 bits and converted to a float, which is the number 0 or 1.
  * The causality partial sums 0 − max (log q) (−100) with q = p where the label is nonzero and 1 − p where it
    is zero; 0 − x is −x.
  * The transitivity partial sums w·max (1/10 − (p_c − p_r)) 0, where w is the product of the multiplicity of the
    pair of positions and the precedence bit. The positions are the tile's offsets plus the local coordinates:
    row 512·q0 + r and column 1024·q1 + c, computed in 32-bit words.
-/
import proofs.«118790_j42803644072824_2_alg».proof.Proof.KOut
import proofs.«118790_j42803644072824_2_alg».proof.Proof.Spec
import proofs.«118790_j42803644072824_2_alg».proof.Proof.Tiles
import proofs.«118790_j42803644072824_2_alg».proof.Proof.LibAxisReduce
import proofs.«118790_j42803644072824_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KPay

open Idealize.ShloMosaic Idealize.ShloMosaic.ValueIdx Cert.KernelIdeal Cert.KernelIdeal.Gen Cert.KernelIdeal.KOut

/-! ## Layout: one number on every lane, and the tile's total -/

/-- A 1 × 1 matrix has one index. -/
theorem idx11_eq (k : (⟨2, ![1, 1]⟩ : Shape).Idx) : k = ix2 (0 : Fin 1) (0 : Fin 1) := by
  funext a
  match a with
  | ⟨0, _⟩ => exact Fin.ext (by have := idx2_lt0 k; show (k 0).val = 0; omega)
  | ⟨1, _⟩ => exact Fin.ext (by have := idx2_lt1 k; show (k 1).val = 0; omega)

/-- A 1 × 1 matrix cast to 1 × 1 × 1 and broadcast along the 128 lanes reads its one entry on every lane. -/
theorem lanes_apply (v : FVec Ideal S1x1 .f32) (y : S1x1x128.Idx) :
    broadcastTo S1x1x128 (shapeCast S1x1x1 (shapeCast S1x1x1 v shapeCasts_S1x1_S1x1x1) shapeCasts_S1x1x1_S1x1x1)
        broadcasts_S1x1x1_S1x1x128 y = v (ix2 (0 : Fin 1) (0 : Fin 1)) := by
  rw [shapeCast_self]
  unfold broadcastTo shapeCast
  exact congrArg v (idx11_eq _)

/-- The total of a 512 × 1024 tile, as printed: the sum over the columns, kept as a column, summed over the rows and
    kept as a 1 × 1 matrix, is at its one index the double sum over rows and columns. -/
theorem tileSum_apply (v : FVec Ideal S512x1024 .f32) :
    shapeCast S1x1
        (multiReduction .add [0] S1
          (shapeCast S512x1 (multiReduction .add [1] S512 v 0x00000000#32 reduces_S512x1024_S512 (.inl rfl) rfl)
            shapeCasts_S512_S512x1)
          0x00000000#32 reduces_S512x1_S1 (.inl rfl) rfl)
        shapeCasts_S1_S1x1 (ix2 (0 : Fin 1) (0 : Fin 1))
      = ∑ r : Fin 512, ∑ c : Fin 1024, v (ix2 r c) := by
  refine (shapeCast_a_1a_apply _ _ (0 : Fin 1) (0 : Fin 1)).trans ?_
  refine (Cert.AxisReduce.colSum_apply _ _ _ _ (0 : Fin 1)).trans ?_
  refine Finset.sum_congr rfl fun r _ => ?_
  refine (Cert.Lib.Columns.shapeCast_a_a1_apply _ _ r (0 : Fin 1)).trans ?_
  exact Cert.AxisReduce.rowSum_apply _ _ _ _ r

/-! ## The accumulator updates -/

theorem pay1_apply (v35 : FVec Ideal S1x1 .f32) (v83 : Vec Ideal S1x1x128 .f32) (y : S1x1x128.Idx) :
    k0_pay1 (F := Ideal) v35 v83 y = v83 y + v35 (ix2 (0 : Fin 1) (0 : Fin 1)) := by
  show shapeCast S1x1x128 v83 shapeCasts_S1x1x128_S1x1x128 y + _ = _
  rw [shapeCast_self]
  exact congrArg (v83 y + ·) (lanes_apply v35 y)

theorem pay2_apply (v49 : FVec Ideal S1x1 .f32) (v90 : Vec Ideal S1x1x128 .f32) (y : S1x1x128.Idx) :
    k0_pay2 (F := Ideal) v49 v90 y = v90 y + v49 (ix2 (0 : Fin 1) (0 : Fin 1)) := by
  show shapeCast S1x1x128 v90 shapeCasts_S1x1x128_S1x1x128 y + _ = _
  rw [shapeCast_self]
  exact congrArg (v90 y + ·) (lanes_apply v49 y)

theorem pay4_apply (y : S1x1x128.Idx) : k0_pay4 (F := Ideal) y = 0 := Ideal.ofBits_zero_f32
theorem pay5_apply (y : S1x1x128.Idx) : k0_pay5 (F := Ideal) y = 0 := Ideal.ofBits_zero_f32
theorem pay6_apply (y : S1x1x128.Idx) : k0_pay6 (F := Ideal) y = 0 := Ideal.ofBits_zero_f32

/-! ## Words -/

/-- A one-bit word widened to 32 bits and converted to a float is the number 0 or 1. -/
theorem ind_of_bit (b : BitVec 1) : FloatOps.sitofp (F := Ideal) .f32 (b.setWidth 32) = Cert.Spec.ind b := by
  have h : (b.setWidth 32).toInt = (b.toNat : ℤ) := by revert b; decide
  show ((((b.setWidth 32).toInt : ℤ) : ℝ) : EReal) = ((b.toNat : ℝ) : EReal)
  rw [h, Int.cast_natCast]

/-- A select on "the word is nonzero" is the choice on "the word is zero", with the branches exchanged. -/
theorem select_ne_zero {α : Type} (w : BitVec 32) (a b : α) :
    Scalar.select (IntOp.cmpi .ne w 0#32) a b = if w = 0#32 then b else a := by
  by_cases h : w = 0#32
  · have e : IntOp.cmpi .ne w 0#32 = 0#1 := by rw [h]; decide
    rw [if_pos h, e]; exact select_zero a b
  · have hb : (w != 0#32) = true := bne_iff_ne.mpr h
    have e : IntOp.cmpi .ne w 0#32 = 1#1 := by simp [IntOp.cmpi, hb]
    rw [if_neg h, e]; exact select_one a b

/-! ## The input blocks spread over the tile -/

/-- A 1 × 512 × 1 block as a column spread over the tile: at (r, c) its entry r. -/
theorem col_apply {α : Type} (x : S1x512x1.Idx → α) (r : Fin 512) (c : Fin 1024) :
    broadcastTo S512x1024 (shapeCast S512x1 x shapeCasts_S1x512x1_S512x1) broadcasts_S512x1_S512x1024 (ix2 r c)
      = x (ix3 (0 : Fin 1) r (0 : Fin 1)) :=
  (Cert.Lib.Columns.broadcastTo_a1_ab_apply _ _ r c).trans (shapeCast_1ab_ab_apply x _ r (0 : Fin 1))

/-- A 1 × 1 × 1024 block as a row spread over the tile: at (r, c) its entry c. -/
theorem row_apply {α : Type} (x : S1x1x1024.Idx → α) (r : Fin 512) (c : Fin 1024) :
    broadcastTo S512x1024 (shapeCast S1x1024 x shapeCasts_S1x1x1024_S1x1024) broadcasts_S1x1024_S512x1024 (ix2 r c)
      = x (ix3 (0 : Fin 1) (0 : Fin 1) c) :=
  (broadcastTo_1b_ab_apply _ _ r c).trans (shapeCast_1ab_ab_apply x _ (0 : Fin 1) c)

/-- A 1 × 512 × 1024 block as the tile: at (r, c) its entry (0, r, c). -/
theorem tile_apply {α : Type} (x : S1x512x1024.Idx → α) (r : Fin 512) (c : Fin 1024) :
    shapeCast S512x1024 x shapeCasts_S1x512x1024_S512x1024 (ix2 r c) = x (ix3 (0 : Fin 1) r c) :=
  shapeCast_1ab_ab_apply x _ r c

/-! ## The ordering partial -/

/-- The ordering hinge's argument at (r, c). -/
theorem pay12_apply (x3 : Vec Ideal S1x512x1 .f32) (x4 : Vec Ideal S1x1x1024 .f32) (x5 : Vec Ideal S1x512x1 .f32)
    (x6 : Vec Ideal S1x1x1024 .f32) (r : Fin 512) (c : Fin 1024) :
    k0_pay12 (F := Ideal) x3 x4 x5 x6 (ix2 r c)
      = Ideal.ofBits .f32 0x3F000000#32
          - (x3 (ix3 (0 : Fin 1) r (0 : Fin 1)) - x4 (ix3 (0 : Fin 1) (0 : Fin 1) c))
            * Cert.Spec.ind (Ideal.cmp .olt (x5 (ix3 (0 : Fin 1) r (0 : Fin 1))) (x6 (ix3 (0 : Fin 1) (0 : Fin 1) c))) := by
  show Ideal.ofBits .f32 0x3F000000#32
      - (broadcastTo S512x1024 (shapeCast S512x1 x3 shapeCasts_S1x512x1_S512x1) broadcasts_S512x1_S512x1024 (ix2 r c)
          - broadcastTo S512x1024 (shapeCast S1x1024 x4 shapeCasts_S1x1x1024_S1x1024) broadcasts_S1x1024_S512x1024 (ix2 r c))
        * FloatOps.sitofp (F := Ideal) .f32
            ((Ideal.cmp .olt
              (broadcastTo S512x1024 (shapeCast S512x1 x5 shapeCasts_S1x512x1_S512x1) broadcasts_S512x1_S512x1024 (ix2 r c))
              (broadcastTo S512x1024 (shapeCast S1x1024 x6 shapeCasts_S1x1x1024_S1x1024) broadcasts_S1x1024_S512x1024
                (ix2 r c))).setWidth 32) = _
  rw [col_apply x3, row_apply x4, col_apply x5, row_apply x6, ind_of_bit]

theorem pOrd_apply (x3 : Vec Ideal S1x512x1 .f32) (x4 : Vec Ideal S1x1x1024 .f32) (x5 : Vec Ideal S1x512x1 .f32)
    (x6 : Vec Ideal S1x1x1024 .f32) :
    pOrd (F := Ideal) x3 x4 x5 x6 (ix2 (0 : Fin 1) (0 : Fin 1))
      = ∑ r : Fin 512, ∑ c : Fin 1024,
          max (Ideal.ofBits .f32 0x3F000000#32
                - (x3 (ix3 (0 : Fin 1) r (0 : Fin 1)) - x4 (ix3 (0 : Fin 1) (0 : Fin 1) c))
                  * Cert.Spec.ind (Ideal.cmp .olt (x5 (ix3 (0 : Fin 1) r (0 : Fin 1))) (x6 (ix3 (0 : Fin 1) (0 : Fin 1) c))))
            (Ideal.ofBits .f32 0x00000000#32) := by
  refine (tileSum_apply
    (maximumf (k0_pay12 (F := Ideal) x3 x4 x5 x6) (broadcast S512x1024 (FloatOps.ofBits (F := Ideal) .f32 0#32)))).trans ?_
  refine Finset.sum_congr rfl fun r _ => Finset.sum_congr rfl fun c _ => ?_
  show max (k0_pay12 (F := Ideal) x3 x4 x5 x6 (ix2 r c)) (Ideal.ofBits .f32 0x00000000#32) = _
  rw [pay12_apply]

/-! ## The causality partial -/

theorem pCaus_apply (x0 : Vec Ideal S1x512x1024 .f32) (x1 : Vec Ideal S1x512x1024 .i32) :
    pCaus (F := Ideal) x0 x1 (ix2 (0 : Fin 1) (0 : Fin 1))
      = ∑ r : Fin 512, ∑ c : Fin 1024,
          -Cert.Spec.clampLog (if x1 (ix3 (0 : Fin 1) r c) = 0#32 then Ideal.ofBits .f32 0x3F800000#32 - x0 (ix3 (0 : Fin 1) r c)
              else x0 (ix3 (0 : Fin 1) r c)) := by
  refine (tileSum_apply _).trans ?_
  refine Finset.sum_congr rfl fun r _ => Finset.sum_congr rfl fun c _ => ?_
  show Ideal.ofBits .f32 0x00000000#32
      - max (Ideal.log (Scalar.select
              (IntOp.cmpi .ne (shapeCast S512x1024 x1 shapeCasts_S1x512x1024_S512x1024 (ix2 r c)) 0#32)
              (shapeCast S512x1024 x0 shapeCasts_S1x512x1024_S512x1024 (ix2 r c))
              (Ideal.ofBits .f32 0x3F800000#32 - shapeCast S512x1024 x0 shapeCasts_S1x512x1024_S512x1024 (ix2 r c))))
          (Ideal.ofBits .f32 0xC2C80000#32) = _
  rw [tile_apply x0, tile_apply x1, select_ne_zero, Ideal.ofBits_zero_f32, zero_sub]
  rfl

/-! ## The transitivity partial -/

/-- The row coordinate of the tile's index, as a 32-bit word. -/
theorem iota0_apply (r : Fin 512) (c : Fin 1024) :
    iota .tc S512x1024 32 [0] iota_S512x1024_d0_w32 (ix2 r c) = BitVec.ofNat 32 r.val := by
  show BitVec.ofNat 32 (0 * 512 + r.val) = _
  rw [Nat.zero_mul, Nat.zero_add]

/-- The column coordinate of the tile's index, as a 32-bit word. -/
theorem iota1_apply (r : Fin 512) (c : Fin 1024) :
    iota .tc S512x1024 32 [1] iota_S512x1024_d1_w32 (ix2 r c) = BitVec.ofNat 32 c.val := by
  show BitVec.ofNat 32 (0 * 1024 + c.val) = _
  rw [Nat.zero_mul, Nat.zero_add]

/-- Row r of row tile q0 in 32-bit words: the local coordinate plus the tile's offset is the word of 512·q0 + r. -/
theorem rowWord (q0 : Fin 4) (r : Fin 512) :
    BitVec.ofNat 32 r.val + BitVec.ofNat 32 q0.val * 512#32 = BitVec.ofNat 32 (Cert.Tiles.rowOf q0 r).val := by
  show _ = BitVec.ofNat 32 (512 * q0.val + r.val)
  rw [BitVec.ofNat_add, BitVec.ofNat_mul, BitVec.add_comm, BitVec.mul_comm]

/-- Column c of column tile q1 in 32-bit words: the word of 1024·q1 + c. -/
theorem colWord (q1 : Fin 2) (c : Fin 1024) :
    BitVec.ofNat 32 c.val + BitVec.ofNat 32 q1.val * 1024#32 = BitVec.ofNat 32 (Cert.Tiles.colOf q1 c).val := by
  show _ = BitVec.ofNat 32 (1024 * q1.val + c.val)
  rw [BitVec.ofNat_add, BitVec.ofNat_mul, BitVec.add_comm, BitVec.mul_comm]

/-- The position difference over the tile of the grid point whose first two coordinates are the words a0, a1:
    column position minus row position. -/
def gapVec (a0 a1 : BitVec 32) : IVec S512x1024 32 :=
  subi (addi (iota .tc S512x1024 32 [1] iota_S512x1024_d1_w32) (broadcast S512x1024 (Scalar.muli a1 1024#32)))
    (addi (iota .tc S512x1024 32 [0] iota_S512x1024_d0_w32) (broadcast S512x1024 (Scalar.muli a0 512#32)))

/-- At (r, c) of tile (q0, q1) it is the gap between row 512·q0 + r and column 1024·q1 + c. -/
theorem gapVec_apply (q0 : Fin 4) (q1 : Fin 2) (r : Fin 512) (c : Fin 1024) :
    gapVec (BitVec.ofNat 32 q0.val) (BitVec.ofNat 32 q1.val) (ix2 r c)
      = Cert.Spec.gap (Cert.Tiles.rowOf q0 r) (Cert.Tiles.colOf q1 c) := by
  show (iota .tc S512x1024 32 [1] iota_S512x1024_d1_w32 (ix2 r c) + BitVec.ofNat 32 q1.val * 1024#32)
      - (iota .tc S512x1024 32 [0] iota_S512x1024_d0_w32 (ix2 r c) + BitVec.ofNat 32 q0.val * 512#32) = _
  rw [iota0_apply, iota1_apply, rowWord, colWord]
  rfl

/-- The transitivity weight at (r, c) of tile (q0, q1): the multiplicity of the pair of positions times the
    precedence bit. -/
theorem pay15_apply (q0 : Fin 4) (q1 : Fin 2) (x2 : Vec Ideal S1x512x1024 .i32) (r : Fin 512) (c : Fin 1024) :
    k0_pay15 (F := Ideal) (BitVec.ofNat 32 q0.val) (BitVec.ofNat 32 q1.val) (k0_pay9 x2) (ix2 r c)
      = Cert.Spec.mult (Cert.Tiles.rowOf q0 r) (Cert.Tiles.colOf q1 c)
          * Cert.Spec.ind (IntOp.cmpi .sgt (x2 (ix3 (0 : Fin 1) r c)) 0#32) := by
  show Scalar.select (IntOp.cmpi .sge (gapVec (BitVec.ofNat 32 q0.val) (BitVec.ofNat 32 q1.val) (ix2 r c)) 2#32)
        (FloatOps.sitofp (F := Ideal) .f32 (IntOp.subi (gapVec (BitVec.ofNat 32 q0.val) (BitVec.ofNat 32 q1.val) (ix2 r c)) 1#32))
        (Ideal.ofBits .f32 0x00000000#32)
      * FloatOps.sitofp (F := Ideal) .f32
          ((IntOp.cmpi .sgt (shapeCast S512x1024 x2 shapeCasts_S1x512x1024_S512x1024 (ix2 r c)) 0#32).setWidth 32) = _
  rw [gapVec_apply, tile_apply x2, ind_of_bit, Ideal.ofBits_zero_f32]
  rfl

/-- The difference of the predicted times at (r, c): the column's minus the row's. -/
theorem pay16_apply (x3 : Vec Ideal S1x512x1 .f32) (x4 : Vec Ideal S1x1x1024 .f32) (r : Fin 512) (c : Fin 1024) :
    k0_pay16 (F := Ideal) (k0_pay10 x3) (k0_pay11 x4) (ix2 r c)
      = x4 (ix3 (0 : Fin 1) (0 : Fin 1) c) - x3 (ix3 (0 : Fin 1) r (0 : Fin 1)) := by
  show broadcastTo S512x1024 (shapeCast S1x1024 x4 shapeCasts_S1x1x1024_S1x1024) broadcasts_S1x1024_S512x1024 (ix2 r c)
      - broadcastTo S512x1024 (shapeCast S512x1 x3 shapeCasts_S1x512x1_S512x1) broadcasts_S512x1_S512x1024 (ix2 r c) = _
  rw [col_apply x3, row_apply x4]

/-- The transitivity update: the block read, plus on every lane the tile's total of weight times hinge. -/
theorem pay3_apply (v70 v73 v74 : FVec Ideal S512x1024 .f32) (v97 : Vec Ideal S1x1x128 .f32) (y : S1x1x128.Idx) :
    k0_pay3 (F := Ideal) v70 v73 v74 v97 y
      = v97 y + ∑ r : Fin 512, ∑ c : Fin 1024,
          v70 (ix2 r c) * max (v74 (ix2 r c) - v73 (ix2 r c)) (Ideal.ofBits .f32 0x00000000#32) := by
  show shapeCast S1x1x128 v97 shapeCasts_S1x1x128_S1x1x128 y + _ = _
  rw [shapeCast_self]
  refine congrArg (v97 y + ·) ?_
  refine (lanes_apply _ y).trans ?_
  exact tileSum_apply _

theorem accTrans_apply (i : grid0.Coords) (x2 : Vec Ideal S1x512x1024 .i32) (x3 : Vec Ideal S1x512x1 .f32)
    (x4 : Vec Ideal S1x1x1024 .f32) (xo : Vec Ideal S1x1x128 .f32) (y : S1x1x128.Idx) :
    accTrans (F := Ideal) i x2 x3 x4 xo y
      = xo y + ∑ r : Fin 512, ∑ c : Fin 1024,
          (Cert.Spec.mult (Cert.Tiles.rowOf (i 0) r) (Cert.Tiles.colOf (i 1) c)
              * Cert.Spec.ind (IntOp.cmpi .sgt (x2 (ix3 (0 : Fin 1) r c)) 0#32))
            * max (Ideal.ofBits .f32 0x3DCCCCCD#32 - (x4 (ix3 (0 : Fin 1) (0 : Fin 1) c) - x3 (ix3 (0 : Fin 1) r (0 : Fin 1))))
                (Ideal.ofBits .f32 0x00000000#32) := by
  refine (pay3_apply _ _ _ xo y).trans ?_
  refine congrArg (xo y + ·) ?_
  refine Finset.sum_congr rfl fun r _ => Finset.sum_congr rfl fun c _ => ?_
  have e15 := pay15_apply (i 0) (i 1) x2 r c
  have e16 := pay16_apply x3 x4 r c
  exact congrArg₂ (fun a b => a * max (Ideal.ofBits .f32 0x3DCCCCCD#32 - b) (Ideal.ofBits .f32 0x00000000#32)) e15 e16

end Cert.KernelIdeal.KPay

end
-- ==== Proof.AccFold.lean ====
/-
  An accumulator that is reset at every multiple of 8 and otherwise adds the next term: after step `8·q + j`
  (`j < 8`) it holds the sum of the terms `8·q, …, 8·q + j`; after the last step of a block, the block's eight terms.
  Written for any additive commutative monoid; the reset stores zero and then adds, so a block starts at `0 + p`.
-/
import Idealize.ShloMosaic.Lib.ValueIdx

namespace Cert.AccFold

variable {M : Type*} [AddCommMonoid M]

/-- The accumulator after step `n`. -/
def run (p : ℕ → M) : ℕ → M
  | 0 => 0 + p 0
  | n + 1 => if (n + 1) % 8 = 0 then 0 + p (n + 1) else run p n + p (n + 1)

theorem run_zero (p : ℕ → M) : run p 0 = 0 + p 0 := rfl

theorem run_reset (p : ℕ → M) (n : ℕ) (h : (n + 1) % 8 = 0) : run p (n + 1) = 0 + p (n + 1) := by
  show (if (n + 1) % 8 = 0 then 0 + p (n + 1) else run p n + p (n + 1)) = _
  rw [if_pos h]

theorem run_step (p : ℕ → M) (n : ℕ) (h : ¬(n + 1) % 8 = 0) : run p (n + 1) = run p n + p (n + 1) := by
  show (if (n + 1) % 8 = 0 then 0 + p (n + 1) else run p n + p (n + 1)) = _
  rw [if_neg h]

/-- After step `8·q + j` the accumulator holds the block's first `j + 1` terms. -/
theorem run_closed (p : ℕ → M) (q : ℕ) : ∀ j : ℕ, j < 8 → run p (8 * q + j) = ∑ j' ∈ Finset.range (j + 1), p (8 * q + j')
  | 0, _ => by
    rw [Finset.sum_range_one, Nat.add_zero]
    cases q with
    | zero => rw [Nat.mul_zero, run_zero, zero_add]
    | succ q' =>
      have e : 8 * (q' + 1) = (8 * q' + 7) + 1 := by omega
      rw [e, run_reset p _ (by omega), zero_add]
  | j + 1, hj => by
    have e : 8 * q + (j + 1) = (8 * q + j) + 1 := by omega
    rw [e, run_step p _ (by omega), run_closed p q j (by omega), Finset.sum_range_succ (fun j' => p (8 * q + j')) (j + 1), Nat.add_assoc]

/-- After a block's last step the accumulator holds the block's eight terms. -/
theorem run_block (p : ℕ → M) (q : ℕ) : run p (8 * q + 7) = ∑ j : Fin 8, p (8 * q + j.val) := by
  rw [run_closed p q 7 (by omega), Finset.sum_range (fun j' => p (8 * q + j'))]

end Cert.AccFold
-- ==== Proof.KAcc.lean ====
/-
  What the three accumulators hold after each grid point, at the ideal float values. Every lane of an accumulator's
  block holds the same number: after the first point of a row tile (where the body first stores zeros) zero plus that
  point's partial sum, after any other point what it held before plus the point's partial sum. So after point `n` a
  lane holds the fold, restarted every eight points, of the partials — by induction on the point.
-/
import proofs.«118790_j42803644072824_2_alg».proof.Proof.KOut
import proofs.«118790_j42803644072824_2_alg».proof.Proof.KPay
import proofs.«118790_j42803644072824_2_alg».proof.Proof.AccFold
import proofs.«118790_j42803644072824_2_alg».proof.Proof.Spec
import proofs.«118790_j42803644072824_2_alg».proof.Proof.Tiles
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KAcc

open Cert.KernelIdeal Cert.KernelIdeal.Gen Cert.KernelIdeal.KOut Cert.KernelIdeal.KPay Idealize.ShloMosaic.ValueIdx Cert.AccFold

variable (m : (ℓ : Loc nD τ sig) → Buf (Elt Ideal) ℓ)

/-- The transitivity partial of a tile: the weighted hinge summed over the tile's 512 × 1024 entries. -/
def tileT (i : grid0.Coords) (x2 : Vec Ideal S1x512x1024 .i32) (x3 : Vec Ideal S1x512x1 .f32) (x4 : Vec Ideal S1x1x1024 .f32) : EReal :=
  ∑ r : Fin 512, ∑ cc : Fin 1024,
    (Cert.Spec.mult (Cert.Tiles.rowOf (i 0) r) (Cert.Tiles.colOf (i 1) cc) * Cert.Spec.ind (IntOp.cmpi .sgt (x2 (ix3 (0 : Fin 1) r cc)) 0#32))
      * max (Ideal.ofBits .f32 0x3DCCCCCD#32 - (x4 (ix3 (0 : Fin 1) (0 : Fin 1) cc) - x3 (ix3 (0 : Fin 1) r (0 : Fin 1)))) (Ideal.ofBits .f32 0x00000000#32)

/-- One lane of each accumulator after a point that first stores zeros: zero plus the point's partial. -/
theorem first7 (x3 : Vec Ideal S1x512x1 .f32) (x4 : Vec Ideal S1x1x1024 .f32) (x5 : Vec Ideal S1x512x1 .f32) (x6 : Vec Ideal S1x1x1024 .f32) (y : S1x1x128.Idx) :
    k0_pay1 (F := Ideal) (pOrd x3 x4 x5 x6) (k0_pay4 (F := Ideal)) y = 0 + pOrd (F := Ideal) x3 x4 x5 x6 (ix2 (0 : Fin 1) (0 : Fin 1)) := by
  rw [pay1_apply, pay4_apply]
theorem first8 (x0 : Vec Ideal S1x512x1024 .f32) (x1 : Vec Ideal S1x512x1024 .i32) (y : S1x1x128.Idx) :
    k0_pay2 (F := Ideal) (pCaus x0 x1) (k0_pay5 (F := Ideal)) y = 0 + pCaus (F := Ideal) x0 x1 (ix2 (0 : Fin 1) (0 : Fin 1)) := by
  rw [pay2_apply, pay5_apply]
theorem first9 (i : grid0.Coords) (x2 : Vec Ideal S1x512x1024 .i32) (x3 : Vec Ideal S1x512x1 .f32) (x4 : Vec Ideal S1x1x1024 .f32) (y : S1x1x128.Idx) :
    accTrans (F := Ideal) i x2 x3 x4 (k0_pay6 (F := Ideal)) y = 0 + tileT i x2 x3 x4 := by
  rw [accTrans_apply, pay6_apply]; rfl
/-- One lane after any other point: what the lane held plus the point's partial. -/
theorem next7 (x3 : Vec Ideal S1x512x1 .f32) (x4 : Vec Ideal S1x1x1024 .f32) (x5 : Vec Ideal S1x512x1 .f32) (x6 : Vec Ideal S1x1x1024 .f32) (xo : Vec Ideal S1x1x128 .f32) (y : S1x1x128.Idx) :
    k0_pay1 (F := Ideal) (pOrd x3 x4 x5 x6) xo y = xo y + pOrd (F := Ideal) x3 x4 x5 x6 (ix2 (0 : Fin 1) (0 : Fin 1)) := pay1_apply _ _ _
theorem next8 (x0 : Vec Ideal S1x512x1024 .f32) (x1 : Vec Ideal S1x512x1024 .i32) (xo : Vec Ideal S1x1x128 .f32) (y : S1x1x128.Idx) :
    k0_pay2 (F := Ideal) (pCaus x0 x1) xo y = xo y + pCaus (F := Ideal) x0 x1 (ix2 (0 : Fin 1) (0 : Fin 1)) := pay2_apply _ _ _
theorem next9 (i : grid0.Coords) (x2 : Vec Ideal S1x512x1024 .i32) (x3 : Vec Ideal S1x512x1 .f32) (x4 : Vec Ideal S1x1x1024 .f32) (xo : Vec Ideal S1x1x128 .f32) (y : S1x1x128.Idx) :
    accTrans (F := Ideal) i x2 x3 x4 xo y = xo y + tileT i x2 x3 x4 := by
  rw [accTrans_apply]; rfl

/-- The three partials of point `n` (zero beyond the grid): from the point's input blocks. -/
def pO (c : Dev nD) (n : ℕ) : EReal :=
  if h : n < cfg0.N then pOrd (F := Ideal) (iblk m c 3 ⟨n, h⟩) (iblk m c 4 ⟨n, h⟩) (iblk m c 5 ⟨n, h⟩) (iblk m c 6 ⟨n, h⟩) (ix2 (0 : Fin 1) (0 : Fin 1)) else 0
def pC (c : Dev nD) (n : ℕ) : EReal :=
  if h : n < cfg0.N then pCaus (F := Ideal) (iblk m c 0 ⟨n, h⟩) (iblk m c 1 ⟨n, h⟩) (ix2 (0 : Fin 1) (0 : Fin 1)) else 0
def pT (c : Dev nD) (n : ℕ) : EReal :=
  if h : n < cfg0.N then tileT (grid0.coords ⟨n, h⟩) (iblk m c 2 ⟨n, h⟩) (iblk m c 3 ⟨n, h⟩) (iblk m c 4 ⟨n, h⟩) else 0

/-- What the accumulators hold after point `n`: every lane of each is the fold of that output's partials, restarted at
    the first point of each row tile. By induction on the point. -/
theorem outsAt_eq (c : Dev nD) : ∀ (n : ℕ) (h : n < cfg0.N),
    (∀ y, (outsAt0 m c n h).1 y = run (pO m c) n) ∧ (∀ y, (outsAt0 m c n h).2.1 y = run (pC m c) n)
      ∧ (∀ y, (outsAt0 m c n h).2.2 y = run (pT m c) n)
  | 0, h => by
    have hA : (⟨0, h⟩ : Fin cfg0.N).val % 8 = 0 := rfl
    rw [outsAt0_A m c ⟨0, h⟩ hA]
    refine ⟨fun y => ?_, fun y => ?_, fun y => ?_⟩ <;> dsimp only
    · rw [out_A_7, first7, run_zero]; unfold pO; rw [dif_pos h]
    · rw [out_A_8, first8, run_zero]; unfold pC; rw [dif_pos h]
    · rw [out_A_9, first9, run_zero]; unfold pT; rw [dif_pos h]
  | n + 1, h => by
    have ih := outsAt_eq c n (Nat.lt_of_succ_lt h)
    by_cases h0 : (n + 1) % 8 = 0
    · have hA : (⟨n + 1, h⟩ : Fin cfg0.N).val % 8 = 0 := h0
      rw [outsAt0_A m c ⟨n + 1, h⟩ hA]
      refine ⟨fun y => ?_, fun y => ?_, fun y => ?_⟩ <;> dsimp only
      · rw [out_A_7, first7, run_reset _ _ h0]; unfold pO; rw [dif_pos h]
      · rw [out_A_8, first8, run_reset _ _ h0]; unfold pC; rw [dif_pos h]
      · rw [out_A_9, first9, run_reset _ _ h0]; unfold pT; rw [dif_pos h]
    · have hB : ¬(⟨n + 1, h⟩ : Fin cfg0.N).val % 8 = 0 := h0
      rw [outsAt0_B m c ⟨n + 1, h⟩ hB]
      refine ⟨fun y => ?_, fun y => ?_, fun y => ?_⟩ <;> dsimp only
      · rw [out_B_7, next7, run_step _ _ h0]
        refine congrArg₂ (· + ·) (ih.1 y) ?_
        unfold pO; rw [dif_pos h]
      · rw [out_B_8, next8, run_step _ _ h0]
        refine congrArg₂ (· + ·) (ih.2.1 y) ?_
        unfold pC; rw [dif_pos h]
      · rw [out_B_9, next9, run_step _ _ h0]
        refine congrArg₂ (· + ·) (ih.2.2 y) ?_
        unfold pT; rw [dif_pos h]

end Cert.KernelIdeal.KAcc

end
-- ==== Proof.KFinal.lean ====
/-
  From what an accumulator's staging block holds after each grid point to what the region's output array holds at the
  end.

  Each of the three outputs is an array of 4 × 1 × 128 staged in blocks of 1 × 1 × 128 at block index (q, 0, 0), q the
  point's row tile: the block is carried over the eight points t = 8·q, …, 8·q + 7 of a row tile and written back only
  after the last of them.  So the array's row q ends holding what the block held after point 8·q + 7, and the four
  written rows are the whole array.
-/
import proofs.«118790_j42803644072824_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.KFinal

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-! ### The block indices, decided once over the 32 points -/

/-- Output window 7's block index is (t / 8, 0, 0). -/
theorem idx7 : ∀ t : Fin cfg0.N, win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0)

/-- Output window 8's block index is (t / 8, 0, 0). -/
theorem idx8 : ∀ t : Fin cfg0.N, win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0)

/-- Output window 9's block index is (t / 8, 0, 0). -/
theorem idx9 : ∀ t : Fin cfg0.N, win0_9.index t 0 = t.val / 8 ∧ win0_9.index t 1 = 0 ∧ win0_9.index t 2 = 0 :=
  (by decide +kernel : ∀ t : Fin grid0.N, win0_9.index t 0 = t.val / 8 ∧ win0_9.index t 1 = 0 ∧ win0_9.index t 2 = 0)

/-! ### The first output -/

/-- What the write-back after a row tile's last point t = 8·q + 7 writes is row q of the function
    i ↦ S (8·(i 0) + 7): the block is uncut, it holds S t everywhere, and its axis-0 offset is t / 8. -/
theorem flushed7_eq (c : Dev nD) (S : ℕ → EReal)
    (hS : ∀ (n : ℕ) (h : n < cfg0.N) (y : S1x1x128.Idx), (outsAt0 m c n h).1 y = S n)
    (t : Fin cfg0.N) (hf : (cfg0.win 7).flush t = true) :
    (dats m 0 c).flushed 7 t
      = ((cfg0.win 7).blk t).view.read (Elt Ideal) (fun i : S4x1x128.Idx => S (8 * (i 0).val + 7)) := by
  have h7 : t.val % 8 = 7 := (flush0_7 t).mp hf
  obtain ⟨h0, _, _⟩ := idx7 t
  show (cfg0.win 7).cut (grid0.coords t) ((dats m 0 c).after 7 t) = _
  rw [after0_7]
  funext y
  rw [View.read_apply]
  show (outsAt0 m c t.val t.isLt).1 _ = S (8 * (win0_7.index t 0 * 1 + 1 * (y 0).val) + 7)
  have hy : (y 0).val < 1 := (y 0).isLt
  rw [hS, h0]
  congr 1
  omega

/-- An index of the array lies in the block of every point of its row tile. -/
theorem mem_blk7 (t : Fin cfg0.N) (i : S4x1x128.Idx) (h : t.val / 8 = (i 0).val) :
    i ∈ ((cfg0.win 7).blk t).view.set := by
  obtain ⟨h0, h1, h2⟩ := idx7 t
  have hi1 : (i 1).val < 1 := (i 1).isLt
  have hi2 : (i 2).val < 128 := (i 2).isLt
  show i ∈ ((View.whole main_v4_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    rw [h0]; omega
  | ⟨1, _⟩ =>
    show win0_7.index t 1 * 1 ≤ (i 1).val ∧ (i 1).val < win0_7.index t 1 * 1 + 1
    rw [h1]; omega
  | ⟨2, _⟩ =>
    show win0_7.index t 2 * 128 ≤ (i 2).val ∧ (i 2).val < win0_7.index t 2 * 128 + 128
    rw [h2]; omega

/-- Every index (q, 0, l) of the array is written by the write-back after point 8·q + 7. -/
theorem cover7 (i : S4x1x128.Idx) :
    ∃ t : Fin cfg0.N, (cfg0.win 7).flush t = true ∧ i ∈ ((cfg0.win 7).blk t).view.set := by
  have hi0 : (i 0).val < 4 := (i 0).isLt
  have hN : cfg0.N = 32 := N_0
  refine ⟨⟨8 * (i 0).val + 7, by rw [hN]; omega⟩, (flush0_7 _).mpr ?_, mem_blk7 _ i ?_⟩
  · show (8 * (i 0).val + 7) % 8 = 7; omega
  · show (8 * (i 0).val + 7) / 8 = (i 0).val; omega

/-- So the first output array ends holding, in row q, what its block held after point 8·q + 7. -/
theorem final7_of (c : Dev nD) (S : ℕ → EReal)
    (hS : ∀ (n : ℕ) (h : n < cfg0.N) (y : S1x1x128.Idx), (outsAt0 m c n h).1 y = S n) :
    ((dats m 0 c).arrAt 7 cfg0.N : S4x1x128.Idx → EReal) = fun i => S (8 * (i 0).val + 7) :=
  (dats m 0 c).arrAt_eq_of_cover 7 (fun i : S4x1x128.Idx => S (8 * (i 0).val + 7)) (flushed7_eq m c S hS) cover7

/-! ### The second output -/

/-- What the write-back after a row tile's last point t = 8·q + 7 writes is row q of the function
    i ↦ S (8·(i 0) + 7): the block is uncut, it holds S t everywhere, and its axis-0 offset is t / 8. -/
theorem flushed8_eq (c : Dev nD) (S : ℕ → EReal)
    (hS : ∀ (n : ℕ) (h : n < cfg0.N) (y : S1x1x128.Idx), (outsAt0 m c n h).2.1 y = S n)
    (t : Fin cfg0.N) (hf : (cfg0.win 8).flush t = true) :
    (dats m 0 c).flushed 8 t
      = ((cfg0.win 8).blk t).view.read (Elt Ideal) (fun i : S4x1x128.Idx => S (8 * (i 0).val + 7)) := by
  have h7 : t.val % 8 = 7 := (flush0_8 t).mp hf
  obtain ⟨h0, _, _⟩ := idx8 t
  show (cfg0.win 8).cut (grid0.coords t) ((dats m 0 c).after 8 t) = _
  rw [after0_8]
  funext y
  rw [View.read_apply]
  show (outsAt0 m c t.val t.isLt).2.1 _ = S (8 * (win0_8.index t 0 * 1 + 1 * (y 0).val) + 7)
  have hy : (y 0).val < 1 := (y 0).isLt
  rw [hS, h0]
  congr 1
  omega

/-- An index of the array lies in the block of every point of its row tile. -/
theorem mem_blk8 (t : Fin cfg0.N) (i : S4x1x128.Idx) (h : t.val / 8 = (i 0).val) :
    i ∈ ((cfg0.win 8).blk t).view.set := by
  obtain ⟨h0, h1, h2⟩ := idx8 t
  have hi1 : (i 1).val < 1 := (i 1).isLt
  have hi2 : (i 2).val < 128 := (i 2).isLt
  show i ∈ ((View.whole main_v4_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    rw [h0]; omega
  | ⟨1, _⟩ =>
    show win0_8.index t 1 * 1 ≤ (i 1).val ∧ (i 1).val < win0_8.index t 1 * 1 + 1
    rw [h1]; omega
  | ⟨2, _⟩ =>
    show win0_8.index t 2 * 128 ≤ (i 2).val ∧ (i 2).val < win0_8.index t 2 * 128 + 128
    rw [h2]; omega

/-- Every index (q, 0, l) of the array is written by the write-back after point 8·q + 7. -/
theorem cover8 (i : S4x1x128.Idx) :
    ∃ t : Fin cfg0.N, (cfg0.win 8).flush t = true ∧ i ∈ ((cfg0.win 8).blk t).view.set := by
  have hi0 : (i 0).val < 4 := (i 0).isLt
  have hN : cfg0.N = 32 := N_0
  refine ⟨⟨8 * (i 0).val + 7, by rw [hN]; omega⟩, (flush0_8 _).mpr ?_, mem_blk8 _ i ?_⟩
  · show (8 * (i 0).val + 7) % 8 = 7; omega
  · show (8 * (i 0).val + 7) / 8 = (i 0).val; omega

/-- So the second output array ends holding, in row q, what its block held after point 8·q + 7. -/
theorem final8_of (c : Dev nD) (S : ℕ → EReal)
    (hS : ∀ (n : ℕ) (h : n < cfg0.N) (y : S1x1x128.Idx), (outsAt0 m c n h).2.1 y = S n) :
    ((dats m 0 c).arrAt 8 cfg0.N : S4x1x128.Idx → EReal) = fun i => S (8 * (i 0).val + 7) :=
  (dats m 0 c).arrAt_eq_of_cover 8 (fun i : S4x1x128.Idx => S (8 * (i 0).val + 7)) (flushed8_eq m c S hS) cover8

/-! ### The third output -/

/-- What the write-back after a row tile's last point t = 8·q + 7 writes is row q of the function
    i ↦ S (8·(i 0) + 7): the block is uncut, it holds S t everywhere, and its axis-0 offset is t / 8. -/
theorem flushed9_eq (c : Dev nD) (S : ℕ → EReal)
    (hS : ∀ (n : ℕ) (h : n < cfg0.N) (y : S1x1x128.Idx), (outsAt0 m c n h).2.2 y = S n)
    (t : Fin cfg0.N) (hf : (cfg0.win 9).flush t = true) :
    (dats m 0 c).flushed 9 t
      = ((cfg0.win 9).blk t).view.read (Elt Ideal) (fun i : S4x1x128.Idx => S (8 * (i 0).val + 7)) := by
  have h7 : t.val % 8 = 7 := (flush0_9 t).mp hf
  obtain ⟨h0, _, _⟩ := idx9 t
  show (cfg0.win 9).cut (grid0.coords t) ((dats m 0 c).after 9 t) = _
  rw [after0_9]
  funext y
  rw [View.read_apply]
  show (outsAt0 m c t.val t.isLt).2.2 _ = S (8 * (win0_9.index t 0 * 1 + 1 * (y 0).val) + 7)
  have hy : (y 0).val < 1 := (y 0).isLt
  rw [hS, h0]
  congr 1
  omega

/-- An index of the array lies in the block of every point of its row tile. -/
theorem mem_blk9 (t : Fin cfg0.N) (i : S4x1x128.Idx) (h : t.val / 8 = (i 0).val) :
    i ∈ ((cfg0.win 9).blk t).view.set := by
  obtain ⟨h0, h1, h2⟩ := idx9 t
  have hi1 : (i 1).val < 1 := (i 1).isLt
  have hi2 : (i 2).val < 128 := (i 2).isLt
  show i ∈ ((View.whole main_v4_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    rw [h0]; omega
  | ⟨1, _⟩ =>
    show win0_9.index t 1 * 1 ≤ (i 1).val ∧ (i 1).val < win0_9.index t 1 * 1 + 1
    rw [h1]; omega
  | ⟨2, _⟩ =>
    show win0_9.index t 2 * 128 ≤ (i 2).val ∧ (i 2).val < win0_9.index t 2 * 128 + 128
    rw [h2]; omega

/-- Every index (q, 0, l) of the array is written by the write-back after point 8·q + 7. -/
theorem cover9 (i : S4x1x128.Idx) :
    ∃ t : Fin cfg0.N, (cfg0.win 9).flush t = true ∧ i ∈ ((cfg0.win 9).blk t).view.set := by
  have hi0 : (i 0).val < 4 := (i 0).isLt
  have hN : cfg0.N = 32 := N_0
  refine ⟨⟨8 * (i 0).val + 7, by rw [hN]; omega⟩, (flush0_9 _).mpr ?_, mem_blk9 _ i ?_⟩
  · show (8 * (i 0).val + 7) % 8 = 7; omega
  · show (8 * (i 0).val + 7) / 8 = (i 0).val; omega

/-- So the third output array ends holding, in row q, what its block held after point 8·q + 7. -/
theorem final9_of (c : Dev nD) (S : ℕ → EReal)
    (hS : ∀ (n : ℕ) (h : n < cfg0.N) (y : S1x1x128.Idx), (outsAt0 m c n h).2.2 y = S n) :
    ((dats m 0 c).arrAt 9 cfg0.N : S4x1x128.Idx → EReal) = fun i => S (8 * (i 0).val + 7) :=
  (dats m 0 c).arrAt_eq_of_cover 9 (fun i : S4x1x128.Idx => S (8 * (i 0).val + 7)) (flushed9_eq m c S hS) cover9

end Cert.KernelIdeal.KFinal

end
-- ==== Proof.KTail.lean ====
/-
  The host operations after the region, read back.  Each of the region's three output arrays holds one accumulator row
  per row tile, the same value in every lane.  The tail slices lane 0 out of each ([4, 1, 1]), flattens it ([4]), sums the
  four entries from zero, divides the three sums by their constants, and adds the three quotients with their weights.
  So each result buffer ends at a function of the three output arrays alone: the quotient `lossOf A w` of the sum of
  the four rows' lane-0 entries by the divisor word, and for the total the weighted sum of the three.  The five argument
  arrays are written by no operation of the tail and end as launched.
-/
import proofs.«118790_j42803644072824_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.KTail

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ) (ρ : Dev nD → PrngReg)

/-! ## One output array: its lane-0 column, flattened and summed -/

/-- The three host operations on one output array: the lane-0 column sliced out, flattened, summed from the constant zero. -/
def sumTerm (X : (⟨S4x1x128, .f32⟩ : BufTy).Contents (Elt Ideal)) : (⟨S_, .f32⟩ : BufTy).Contents (Elt Ideal) :=
  Host.reduceAdd (F := Ideal)
    (shapeCast S4 (extractStridedSlice S4x1x1 ![0, 0, 0] X slices_S4x1x128_S4x1x1_0_0_0) shapeCasts_S4x1x1_S4)
    (constant (F := Ideal) S_ .f32 0x00000000#32) reducesTo_S4_S_d0 h_S_

/-- A rank-1 index set is its one coordinate range … -/
def idxEquiv1 {n : Nat} : (⟨1, ![n]⟩ : Shape).Idx ≃ Fin n where
  toFun i := i 0
  invFun q := ix1 q
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ q : Fin n, f (ix1 q) :=
  (Equiv.sum_comp (idxEquiv1 (n := n)).symm f).symm

/-- The flattened lane-0 column at `q` is the array at (q, 0, 0): row-major position `q` of a [4, 1, 1] array is
    its entry (q, 0, 0), and the slice starts at the origin. -/
theorem column_apply (X : (⟨S4x1x128, .f32⟩ : BufTy).Contents (Elt Ideal)) (q : Fin 4) :
    shapeCast S4 (extractStridedSlice S4x1x1 ![0, 0, 0] X slices_S4x1x128_S4x1x1_0_0_0) shapeCasts_S4x1x1_S4 (ix1 q)
      = X (ix3 q (0 : Fin 1) (0 : Fin 128)) := by
  rw [shapeCast_apply _ shapeCasts_S4x1x1_S4 (ix1 q) (ix3 q (0 : Fin 1) (0 : Fin 1))
    (by rw [Shape.rowMajor_val_three, Shape.rowMajor_val_one]; show (q.val * 1 + 0) * 1 + 0 = q.val; omega)]
  exact extractStridedSlice_apply _ X slices_S4x1x128_S4x1x1_0_0_0 _ (ix3 q (0 : Fin 1) (0 : Fin 128)) (fun a => match a with
    | ⟨0, _⟩ => (Nat.zero_add _).symm
    | ⟨1, _⟩ => rfl
    | ⟨2, _⟩ => rfl)

/-- The sum of one output array's lane-0 column: a host sum into a scalar is the initial value plus the sum over every
    index, the initial value is zero, and the indices of a rank-1 array are its one coordinate. -/
theorem sumTerm_apply (X : (⟨S4x1x128, .f32⟩ : BufTy).Contents (Elt Ideal)) (j : S_.Idx) :
    sumTerm X j = ∑ q : Fin 4, X (ix3 q (0 : Fin 1) (0 : Fin 128)) := by
  unfold sumTerm
  simp only [Host.reduceAdd, Ideal.hostReduceAdd_def]
  rw [Ideal.hostReduceAdd_total reducesTo_S4_S_d0 (fun b => b.elim0), sum_idx1]
  refine (congrArg (_ + ·) (Finset.sum_congr rfl fun q _ => column_apply X q)).trans ?_
  show Ideal.ofBits .f32 0x00000000#32 + _ = _
  rw [Ideal.ofBits_zero_f32, zero_add]

/-- One result of the tail: the four accumulator rows' lane-0 entries summed, over the divisor word. -/
def lossOf (A : S4x1x128.Idx → EReal) (w : BitVec 32) : EReal :=
  Ideal.div (∑ q : Fin 4, A (ix3 q (0 : Fin 1) (0 : Fin 128))) (Ideal.ofBits .f32 w)

/-- The host's quotient of that sum by a constant word, read at the scalar's one index. -/
theorem quot_apply (X : (⟨S4x1x128, .f32⟩ : BufTy).Contents (Elt Ideal)) (w : BitVec 32) (j : S_.Idx) :
    Host.divf (F := Ideal) (sumTerm X) (constant (F := Ideal) S_ .f32 w) j = lossOf X w := by
  show Ideal.div (sumTerm X j) (Ideal.ofBits .f32 w) = _
  rw [sumTerm_apply]
  rfl

/-! ## The tail from any contents -/

variable (W : Valuation τ sig (Elt Ideal))

theorem tailW_v14 : StableHlo.after (hostOps1 (F := Ideal)) W (Proc.devRef .tc main_v14)
    = Host.divf (F := Ideal) (sumTerm (W (Proc.devRef .tc main_v4_0))) (constant (F := Ideal) S_ .f32 0x4B800000#32) := by
  after_results
  rfl

theorem tailW_v15 : StableHlo.after (hostOps1 (F := Ideal)) W (Proc.devRef .tc main_v15)
    = Host.divf (F := Ideal) (sumTerm (W (Proc.devRef .tc main_v4_1))) (constant (F := Ideal) S_ .f32 0x4B800000#32) := by
  after_results
  rfl

theorem tailW_v16 : StableHlo.after (hostOps1 (F := Ideal)) W (Proc.devRef .tc main_v16)
    = Host.divf (F := Ideal) (sumTerm (W (Proc.devRef .tc main_v4_2))) (constant (F := Ideal) S_ .f32 0x4FAA6AB0#32) := by
  after_results
  rfl

theorem tailW_v21 : StableHlo.after (hostOps1 (F := Ideal)) W (Proc.devRef .tc main_v21)
    = addf (F := Ideal)
        (addf (F := Ideal)
          (mulf (F := Ideal) (constant (F := Ideal) S_ .f32 0x3F800000#32)
            (Host.divf (F := Ideal) (sumTerm (W (Proc.devRef .tc main_v4_0))) (constant (F := Ideal) S_ .f32 0x4B800000#32)))
          (mulf (F := Ideal) (constant (F := Ideal) S_ .f32 0x3F4CCCCD#32)
            (Host.divf (F := Ideal) (sumTerm (W (Proc.devRef .tc main_v4_1))) (constant (F := Ideal) S_ .f32 0x4B800000#32))))
        (mulf (F := Ideal) (constant (F := Ideal) S_ .f32 0x3F19999A#32)
          (Host.divf (F := Ideal) (sumTerm (W (Proc.devRef .tc main_v4_2))) (constant (F := Ideal) S_ .f32 0x4FAA6AB0#32))) := by
  after_results_simp
  rfl

/-! ## The tail from the region's exit, and the run -/

/-- The ordering result: the tail from the region's exit contents, the first output array at `A7`. -/
theorem tail_v14 (c : Dev nD) (A7 : S4x1x128.Idx → EReal) (h7 : (dats m 0 c).arrAt 7 cfg0.N = A7) :
    Pipeline.afterTail₀ cfgs (dats m) 0 (V0 m) [hostOps1] c main_v14 = fun _ => lossOf A7 0x4B800000#32 := by
  have e : Pipeline.withArrays spec0 c (V0 m c) (fun w => (dats m 0 c).arrAt w cfg0.N) (Proc.devRef .tc main_v4_0) = A7 :=
    (Pipeline.withArrays_arr spec0 launch0.win.arr_inj c _ _ 7).trans h7
  unfold Pipeline.afterTail₀
  show StableHlo.after hostOps1 (Pipeline.withArrays spec0 c (V0 m c) (fun w => (dats m 0 c).arrAt w cfg0.N))
    (Proc.devRef .tc main_v14) = _
  rw [tailW_v14, e]
  exact funext fun j => quot_apply A7 _ j

/-- The causality result. -/
theorem tail_v15 (c : Dev nD) (A8 : S4x1x128.Idx → EReal) (h8 : (dats m 0 c).arrAt 8 cfg0.N = A8) :
    Pipeline.afterTail₀ cfgs (dats m) 0 (V0 m) [hostOps1] c main_v15 = fun _ => lossOf A8 0x4B800000#32 := by
  have e : Pipeline.withArrays spec0 c (V0 m c) (fun w => (dats m 0 c).arrAt w cfg0.N) (Proc.devRef .tc main_v4_1) = A8 :=
    (Pipeline.withArrays_arr spec0 launch0.win.arr_inj c _ _ 8).trans h8
  unfold Pipeline.afterTail₀
  show StableHlo.after hostOps1 (Pipeline.withArrays spec0 c (V0 m c) (fun w => (dats m 0 c).arrAt w cfg0.N))
    (Proc.devRef .tc main_v15) = _
  rw [tailW_v15, e]
  exact funext fun j => quot_apply A8 _ j

/-- The transitivity result. -/
theorem tail_v16 (c : Dev nD) (A9 : S4x1x128.Idx → EReal) (h9 : (dats m 0 c).arrAt 9 cfg0.N = A9) :
    Pipeline.afterTail₀ cfgs (dats m) 0 (V0 m) [hostOps1] c main_v16 = fun _ => lossOf A9 0x4FAA6AB0#32 := by
  have e : Pipeline.withArrays spec0 c (V0 m c) (fun w => (dats m 0 c).arrAt w cfg0.N) (Proc.devRef .tc main_v4_2) = A9 :=
    (Pipeline.withArrays_arr spec0 launch0.win.arr_inj c _ _ 9).trans h9
  unfold Pipeline.afterTail₀
  show StableHlo.after hostOps1 (Pipeline.withArrays spec0 c (V0 m c) (fun w => (dats m 0 c).arrAt w cfg0.N))
    (Proc.devRef .tc main_v16) = _
  rw [tailW_v16, e]
  exact funext fun j => quot_apply A9 _ j

/-- The total: the three quotients, each times its weight (the weight on the left), added left to right. -/
theorem tail_v21 (c : Dev nD) (A7 A8 A9 : S4x1x128.Idx → EReal) (h7 : (dats m 0 c).arrAt 7 cfg0.N = A7)
    (h8 : (dats m 0 c).arrAt 8 cfg0.N = A8) (h9 : (dats m 0 c).arrAt 9 cfg0.N = A9) :
    Pipeline.afterTail₀ cfgs (dats m) 0 (V0 m) [hostOps1] c main_v21
      = fun _ => Ideal.ofBits .f32 0x3F800000#32 * lossOf A7 0x4B800000#32
          + Ideal.ofBits .f32 0x3F4CCCCD#32 * lossOf A8 0x4B800000#32 + Ideal.ofBits .f32 0x3F19999A#32 * lossOf A9 0x4FAA6AB0#32 := by
  have e7 : Pipeline.withArrays spec0 c (V0 m c) (fun w => (dats m 0 c).arrAt w cfg0.N) (Proc.devRef .tc main_v4_0) = A7 :=
    (Pipeline.withArrays_arr spec0 launch0.win.arr_inj c _ _ 7).trans h7
  have e8 : Pipeline.withArrays spec0 c (V0 m c) (fun w => (dats m 0 c).arrAt w cfg0.N) (Proc.devRef .tc main_v4_1) = A8 :=
    (Pipeline.withArrays_arr spec0 launch0.win.arr_inj c _ _ 8).trans h8
  have e9 : Pipeline.withArrays spec0 c (V0 m c) (fun w => (dats m 0 c).arrAt w cfg0.N) (Proc.devRef .tc main_v4_2) = A9 :=
    (Pipeline.withArrays_arr spec0 launch0.win.arr_inj c _ _ 9).trans h9
  unfold Pipeline.afterTail₀
  show StableHlo.after hostOps1 (Pipeline.withArrays spec0 c (V0 m c) (fun w => (dats m 0 c).arrAt w cfg0.N))
    (Proc.devRef .tc main_v21) = _
  rw [tailW_v21, e7, e8, e9]
  funext j
  show Ideal.ofBits .f32 0x3F800000#32
        * Host.divf (F := Ideal) (sumTerm A7) (constant (F := Ideal) S_ .f32 0x4B800000#32) j
      + Ideal.ofBits .f32 0x3F4CCCCD#32
        * Host.divf (F := Ideal) (sumTerm A8) (constant (F := Ideal) S_ .f32 0x4B800000#32) j
      + Ideal.ofBits .f32 0x3F19999A#32
        * Host.divf (F := Ideal) (sumTerm A9) (constant (F := Ideal) S_ .f32 0x4FAA6AB0#32) j = _
  rw [quot_apply, quot_apply, quot_apply]

/-- THE RUN READ AT THE RESULTS: every weakly fair execution of @main terminates with each of the four result buffers at
    its function of the region's three output arrays, and the five argument arrays as launched. -/
theorem run_results (A7 A8 A9 : (c : Dev nD) → S4x1x128.Idx → EReal)
    (h7 : ∀ c, (dats m 0 c).arrAt 7 cfg0.N = A7 c) (h8 : ∀ c, (dats m 0 c).arrAt 8 cfg0.N = A8 c)
    (h9 : ∀ c, (dats m 0 c).arrAt 9 cfg0.N = A9 c) :
    θ_run defs (onTc (τ := τ) (main (F := Ideal))) ⟨m, fun _ => 0, ρ⟩ (fun r => ∀ c : Dev nD,
        r.2.mem ((c.tc : Thread nD τ).loc main_v14) = (fun _ => lossOf (A7 c) 0x4B800000#32)
      ∧ r.2.mem ((c.tc : Thread nD τ).loc main_v15) = (fun _ => lossOf (A8 c) 0x4B800000#32)
      ∧ r.2.mem ((c.tc : Thread nD τ).loc main_v16) = (fun _ => lossOf (A9 c) 0x4FAA6AB0#32)
      ∧ r.2.mem ((c.tc : Thread nD τ).loc main_v21) = (fun _ => Ideal.ofBits .f32 0x3F800000#32 * lossOf (A7 c) 0x4B800000#32
            + Ideal.ofBits .f32 0x3F4CCCCD#32 * lossOf (A8 c) 0x4B800000#32 + Ideal.ofBits .f32 0x3F19999A#32 * lossOf (A9 c) 0x4FAA6AB0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_v14 m c (A7 c) (h7 c)),
      ((h c).2 main_v15 (Pipeline.mem_restRefs_of main_v15 (by decide) (by decide))).trans (tail_v15 m c (A8 c) (h8 c)),
      ((h c).2 main_v16 (Pipeline.mem_restRefs_of main_v16 (by decide) (by decide))).trans (tail_v16 m c (A9 c) (h9 c)),
      ((h c).2 main_v21 (Pipeline.mem_restRefs_of main_v21 (by decide) (by decide))).trans
        (tail_v21 m c (A7 c) (A8 c) (A9 c) (h7 c) (h8 c) (h9 c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩) (run_main m ρ)

end Cert.KernelIdeal.KTail
end
-- ==== Proof.KBlocks.lean ====
/-
  What each input window's block holds at a grid point, entry by entry, in terms of the program's argument arrays.

  The grid point t = 8·q + 4·k + b has coordinates (q, k, b): row tile q < 4, column tile k < 2, batch b < 4.  A block's
  entry at the in-block coordinates y sits in the staged array at (block index × block size + y) on every axis.  The
  three rank-3 arguments are staged as they are: blocks of 1 × 512 × 1024 at block index (b, q, k) — batch 0 always for
  the precedence labels — so entry (0, r, c) is the argument at (b, 512·q + r, 1024·k + c).  The two time arrays are
  staged through reshapes of [4, 2048] to [4, 2048, 1] (a column of 512 rows at block index (b, q, 0)) and to
  [4, 1, 2048] (a row of 1024 columns at block index (b, 0, k)); a reshape keeps the row-major position 2048·b + i, so
  those entries are the time array at (b, 512·q + r) and at (b, 1024·k + c).
-/
import proofs.«118790_j42803644072824_2_alg».proof.Proof.Gen.KernelIdeal.Frame
import proofs.«118790_j42803644072824_2_alg».proof.Proof.Tiles
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.KBlocks

open Idealize.ShloMosaic Idealize.ShloMosaic.TcCoe Idealize.SL.Sem Idealize.ShloMosaic.ValueIdx Cert.KernelIdeal Cert.KernelIdeal.Gen Cert.Tiles

variable {F : FTy → Type} [FloatOps F] (m : (ℓ : Loc nD τ sig) → Buf (Elt F) ℓ)

/-! ### The grid point's coordinates -/

/-- The row tile of the point. -/
abbrev qOf (t : Fin cfg0.N) : Fin 4 := grid0.coords t 0
/-- The column tile of the point. -/
abbrev kOf (t : Fin cfg0.N) : Fin 2 := grid0.coords t 1
/-- The batch of the point. -/
abbrev bOf (t : Fin cfg0.N) : Fin 4 := grid0.coords t 2

/-- The point is 8·q + 4·k + b. -/
theorem coords_val (t : Fin cfg0.N) :
    (qOf t).val = t.val / 8 ∧ (kOf t).val = t.val / 4 % 2 ∧ (bOf t).val = t.val % 4 :=
  (by decide +kernel : ∀ t : Fin grid0.N,
    (qOf t).val = t.val / 8 ∧ (kOf t).val = t.val / 4 % 2 ∧ (bOf t).val = t.val % 4) t

/-! ### The block indices, decided once over the 32 points -/

/-- Window 0's block index is (b, q, k). -/
theorem idx0 : ∀ t : Fin cfg0.N,
    win0_0.index t 0 = (bOf t).val ∧ win0_0.index t 1 = (qOf t).val ∧ win0_0.index t 2 = (kOf t).val :=
  (by decide +kernel : ∀ t : Fin grid0.N,
    win0_0.index t 0 = (bOf t).val ∧ win0_0.index t 1 = (qOf t).val ∧ win0_0.index t 2 = (kOf t).val)

/-- Window 1's block index is (b, q, k). -/
theorem idx1 : ∀ t : Fin cfg0.N,
    win0_1.index t 0 = (bOf t).val ∧ win0_1.index t 1 = (qOf t).val ∧ win0_1.index t 2 = (kOf t).val :=
  (by decide +kernel : ∀ t : Fin grid0.N,
    win0_1.index t 0 = (bOf t).val ∧ win0_1.index t 1 = (qOf t).val ∧ win0_1.index t 2 = (kOf t).val)

/-- Window 2's block index is (0, q, k): batch 0 at every point. -/
theorem idx2 : ∀ t : Fin cfg0.N,
    win0_2.index t 0 = 0 ∧ win0_2.index t 1 = (qOf t).val ∧ win0_2.index t 2 = (kOf t).val :=
  (by decide +kernel : ∀ t : Fin grid0.N,
    win0_2.index t 0 = 0 ∧ win0_2.index t 1 = (qOf t).val ∧ win0_2.index t 2 = (kOf t).val)

/-- Window 3's block index is (b, q, 0). -/
theorem idx3 : ∀ t : Fin cfg0.N,
    win0_3.index t 0 = (bOf t).val ∧ win0_3.index t 1 = (qOf t).val ∧ win0_3.index t 2 = 0 :=
  (by decide +kernel : ∀ t : Fin grid0.N,
    win0_3.index t 0 = (bOf t).val ∧ win0_3.index t 1 = (qOf t).val ∧ win0_3.index t 2 = 0)

/-- Window 4's block index is (b, 0, k). -/
theorem idx4 : ∀ t : Fin cfg0.N,
    win0_4.index t 0 = (bOf t).val ∧ win0_4.index t 1 = 0 ∧ win0_4.index t 2 = (kOf t).val :=
  (by decide +kernel : ∀ t : Fin grid0.N,
    win0_4.index t 0 = (bOf t).val ∧ win0_4.index t 1 = 0 ∧ win0_4.index t 2 = (kOf t).val)

/-- Window 5's block index is (b, q, 0). -/
theorem idx5 : ∀ t : Fin cfg0.N,
    win0_5.index t 0 = (bOf t).val ∧ win0_5.index t 1 = (qOf t).val ∧ win0_5.index t 2 = 0 :=
  (by decide +kernel : ∀ t : Fin grid0.N,
    win0_5.index t 0 = (bOf t).val ∧ win0_5.index t 1 = (qOf t).val ∧ win0_5.index t 2 = 0)

/-- Window 6's block index is (b, 0, k). -/
theorem idx6 : ∀ t : Fin cfg0.N,
    win0_6.index t 0 = (bOf t).val ∧ win0_6.index t 1 = 0 ∧ win0_6.index t 2 = (kOf t).val :=
  (by decide +kernel : ∀ t : Fin grid0.N,
    win0_6.index t 0 = (bOf t).val ∧ win0_6.index t 1 = 0 ∧ win0_6.index t 2 = (kOf t).val)

/-! ### The staged time arrays are reshapes of the arguments -/

/-- The predicted times as a column array [4, 2048, 1]. -/
theorem V_main_v0 (c : Dev nD) :
    (V m c main_v0 : S4x2048x1.Idx → F .f32)
      = shapeCast S4x2048x1 (m ((c : Thread nD τ).loc main_arg0)) shapeCasts_S4x2048_S4x2048x1 := by
  show StableHlo.after hostOps0 (fun b => m (c, b)) (Proc.devRef .tc main_v0) = _
  after_results
  rfl

/-- The predicted times as a row array [4, 1, 2048]. -/
theorem V_main_v1 (c : Dev nD) :
    (V m c main_v1 : S4x1x2048.Idx → F .f32)
      = shapeCast S4x1x2048 (m ((c : Thread nD τ).loc main_arg0)) shapeCasts_S4x2048_S4x1x2048 := by
  show StableHlo.after hostOps0 (fun b => m (c, b)) (Proc.devRef .tc main_v1) = _
  after_results
  rfl

/-- The target times as a column array [4, 2048, 1]. -/
theorem V_main_v2 (c : Dev nD) :
    (V m c main_v2 : S4x2048x1.Idx → F .f32)
      = shapeCast S4x2048x1 (m ((c : Thread nD τ).loc main_arg2)) shapeCasts_S4x2048_S4x2048x1 := by
  show StableHlo.after hostOps0 (fun b => m (c, b)) (Proc.devRef .tc main_v2) = _
  after_results
  rfl

/-- The target times as a row array [4, 1, 2048]. -/
theorem V_main_v3 (c : Dev nD) :
    (V m c main_v3 : S4x1x2048.Idx → F .f32)
      = shapeCast S4x1x2048 (m ((c : Thread nD τ).loc main_arg2)) shapeCasts_S4x2048_S4x1x2048 := by
  show StableHlo.after hostOps0 (fun b => m (c, b)) (Proc.devRef .tc main_v3) = _
  after_results
  rfl

/-! ### The blocks -/

/-- The causal-probability block: entry (0, r, c) is the argument at (b, 512·q + r, 1024·k + c). -/
theorem iblk0_apply (c : Dev nD) (t : Fin cfg0.N) (r : Fin 512) (cc : Fin 1024) :
    (iblk m c 0 t : Vec F S1x512x1024 .f32) (ix3 (0 : Fin 1) r cc)
      = m ((c : Thread nD τ).loc main_arg1) (ix3 (bOf t) (rowOf (qOf t) r) (colOf (kOf t) cc)) := by
  obtain ⟨h0, h1, h2⟩ := idx0 t
  unfold iblk
  rw [View.read_apply]
  show V m c main_arg1 _ = _
  rw [V_main_arg1]
  congr 1
  funext a
  apply Fin.ext
  match a with
  | ⟨0, _⟩ => show win0_0.index t 0 * 1 + 1 * 0 = (bOf t).val; rw [h0]; omega
  | ⟨1, _⟩ => show win0_0.index t 1 * 512 + 1 * r.val = (rowOf (qOf t) r).val; rw [h1, rowOf_val]; omega
  | ⟨2, _⟩ => show win0_0.index t 2 * 1024 + 1 * cc.val = (colOf (kOf t) cc).val; rw [h2, colOf_val]; omega

/-- The causal-label block: entry (0, r, c) is the argument at (b, 512·q + r, 1024·k + c). -/
theorem iblk1_apply (c : Dev nD) (t : Fin cfg0.N) (r : Fin 512) (cc : Fin 1024) :
    (iblk m c 1 t : Vec F S1x512x1024 .i32) (ix3 (0 : Fin 1) r cc)
      = m ((c : Thread nD τ).loc main_arg3) (ix3 (bOf t) (rowOf (qOf t) r) (colOf (kOf t) cc)) := by
  obtain ⟨h0, h1, h2⟩ := idx1 t
  unfold iblk
  rw [View.read_apply]
  show V m c main_arg3 _ = _
  rw [V_main_arg3]
  congr 1
  funext a
  apply Fin.ext
  match a with
  | ⟨0, _⟩ => show win0_1.index t 0 * 1 + 1 * 0 = (bOf t).val; rw [h0]; omega
  | ⟨1, _⟩ => show win0_1.index t 1 * 512 + 1 * r.val = (rowOf (qOf t) r).val; rw [h1, rowOf_val]; omega
  | ⟨2, _⟩ => show win0_1.index t 2 * 1024 + 1 * cc.val = (colOf (kOf t) cc).val; rw [h2, colOf_val]; omega

/-- The precedence-label block: entry (0, r, c) is the argument at batch 0, (0, 512·q + r, 1024·k + c). -/
theorem iblk2_apply (c : Dev nD) (t : Fin cfg0.N) (r : Fin 512) (cc : Fin 1024) :
    (iblk m c 2 t : Vec F S1x512x1024 .i32) (ix3 (0 : Fin 1) r cc)
      = m ((c : Thread nD τ).loc main_arg4) (ix3 (0 : Fin 4) (rowOf (qOf t) r) (colOf (kOf t) cc)) := by
  obtain ⟨h0, h1, h2⟩ := idx2 t
  unfold iblk
  rw [View.read_apply]
  show V m c main_arg4 _ = _
  rw [V_main_arg4]
  congr 1
  funext a
  apply Fin.ext
  match a with
  | ⟨0, _⟩ => show win0_2.index t 0 * 1 + 1 * 0 = 0; rw [h0]
  | ⟨1, _⟩ => show win0_2.index t 1 * 512 + 1 * r.val = (rowOf (qOf t) r).val; rw [h1, rowOf_val]; omega
  | ⟨2, _⟩ => show win0_2.index t 2 * 1024 + 1 * cc.val = (colOf (kOf t) cc).val; rw [h2, colOf_val]; omega

/-- The predicted-times column block: entry (0, r, 0) is the argument at (b, 512·q + r). -/
theorem iblk3_apply (c : Dev nD) (t : Fin cfg0.N) (r : Fin 512) :
    (iblk m c 3 t : Vec F S1x512x1 .f32) (ix3 (0 : Fin 1) r (0 : Fin 1))
      = m ((c : Thread nD τ).loc main_arg0) (ix2 (bOf t) (rowOf (qOf t) r)) := by
  obtain ⟨h0, h1, h2⟩ := idx3 t
  unfold iblk
  rw [View.read_apply]
  show (V m c main_v0 : S4x2048x1.Idx → F .f32) _ = _
  rw [V_main_v0]
  refine shapeCast_apply _ _ _ (ix2 (bOf t) (rowOf (qOf t) r)) ?_
  rw [Shape.rowMajor_val_two, Shape.rowMajor_val_three]
  show (bOf t).val * 2048 + (rowOf (qOf t) r).val
    = ((win0_3.index t 0 * 1 + 1 * 0) * 2048 + (win0_3.index t 1 * 512 + 1 * r.val)) * 1 + (win0_3.index t 2 * 1 + 1 * 0)
  rw [h0, h1, h2, rowOf_val]; omega

/-- The predicted-times row block: entry (0, 0, c) is the argument at (b, 1024·k + c). -/
theorem iblk4_apply (c : Dev nD) (t : Fin cfg0.N) (cc : Fin 1024) :
    (iblk m c 4 t : Vec F S1x1x1024 .f32) (ix3 (0 : Fin 1) (0 : Fin 1) cc)
      = m ((c : Thread nD τ).loc main_arg0) (ix2 (bOf t) (colOf (kOf t) cc)) := by
  obtain ⟨h0, h1, h2⟩ := idx4 t
  unfold iblk
  rw [View.read_apply]
  show (V m c main_v1 : S4x1x2048.Idx → F .f32) _ = _
  rw [V_main_v1]
  refine shapeCast_apply _ _ _ (ix2 (bOf t) (colOf (kOf t) cc)) ?_
  rw [Shape.rowMajor_val_two, Shape.rowMajor_val_three]
  show (bOf t).val * 2048 + (colOf (kOf t) cc).val
    = ((win0_4.index t 0 * 1 + 1 * 0) * 1 + (win0_4.index t 1 * 1 + 1 * 0)) * 2048 + (win0_4.index t 2 * 1024 + 1 * cc.val)
  rw [h0, h1, h2, colOf_val]; omega

/-- The target-times column block: entry (0, r, 0) is the argument at (b, 512·q + r). -/
theorem iblk5_apply (c : Dev nD) (t : Fin cfg0.N) (r : Fin 512) :
    (iblk m c 5 t : Vec F S1x512x1 .f32) (ix3 (0 : Fin 1) r (0 : Fin 1))
      = m ((c : Thread nD τ).loc main_arg2) (ix2 (bOf t) (rowOf (qOf t) r)) := by
  obtain ⟨h0, h1, h2⟩ := idx5 t
  unfold iblk
  rw [View.read_apply]
  show (V m c main_v2 : S4x2048x1.Idx → F .f32) _ = _
  rw [V_main_v2]
  refine shapeCast_apply _ _ _ (ix2 (bOf t) (rowOf (qOf t) r)) ?_
  rw [Shape.rowMajor_val_two, Shape.rowMajor_val_three]
  show (bOf t).val * 2048 + (rowOf (qOf t) r).val
    = ((win0_5.index t 0 * 1 + 1 * 0) * 2048 + (win0_5.index t 1 * 512 + 1 * r.val)) * 1 + (win0_5.index t 2 * 1 + 1 * 0)
  rw [h0, h1, h2, rowOf_val]; omega

/-- The target-times row block: entry (0, 0, c) is the argument at (b, 1024·k + c). -/
theorem iblk6_apply (c : Dev nD) (t : Fin cfg0.N) (cc : Fin 1024) :
    (iblk m c 6 t : Vec F S1x1x1024 .f32) (ix3 (0 : Fin 1) (0 : Fin 1) cc)
      = m ((c : Thread nD τ).loc main_arg2) (ix2 (bOf t) (colOf (kOf t) cc)) := by
  obtain ⟨h0, h1, h2⟩ := idx6 t
  unfold iblk
  rw [View.read_apply]
  show (V m c main_v3 : S4x1x2048.Idx → F .f32) _ = _
  rw [V_main_v3]
  refine shapeCast_apply _ _ _ (ix2 (bOf t) (colOf (kOf t) cc)) ?_
  rw [Shape.rowMajor_val_two, Shape.rowMajor_val_three]
  show (bOf t).val * 2048 + (colOf (kOf t) cc).val
    = ((win0_6.index t 0 * 1 + 1 * 0) * 1 + (win0_6.index t 1 * 1 + 1 * 0)) * 2048 + (win0_6.index t 2 * 1024 + 1 * cc.val)
  rw [h0, h1, h2, colOf_val]; omega

end Cert.KernelIdeal.KBlocks

end
-- ==== Proof.KSum.lean ====
/-
  A grid point's three partial sums in terms of the program's argument arrays, and the sum over all grid points.

  The point t has row tile q, column tile k and batch b. Its input blocks hold the argument arrays' entries at batch
  b (batch 0 for the precedence labels), rows 512·q + r and columns 1024·k + c. Putting these entries into the body's
  partial sums gives double sums, over the tile's rows and columns, of the specification's element functions: the
  ordering hinge, the negated clamped log-likelihood, and the transitivity weight times the transitivity hinge.

  The 32 points are numbered 8·q + 4·k + b. Summing the tiles' double sums over all points, in that order, is the
  triple sum over batch and the two positions: the rows 512·q + r run over all 2048 positions as (q, r) runs, the
  columns 1024·k + c likewise, and finite sums may be exchanged.
-/
import proofs.«118790_j42803644072824_2_alg».proof.Proof.KPay
import proofs.«118790_j42803644072824_2_alg».proof.Proof.KBlocks
import proofs.«118790_j42803644072824_2_alg».proof.Proof.Spec
import proofs.«118790_j42803644072824_2_alg».proof.Proof.Tiles

set_option maxRecDepth 16384

noncomputable section

namespace Cert.KernelIdeal.KSum

open Idealize.ShloMosaic Idealize.ShloMosaic.TcCoe Idealize.SL.Sem Idealize.ShloMosaic.ValueIdx Cert.KernelIdeal Cert.KernelIdeal.Gen Cert.KernelIdeal.KOut Cert.KernelIdeal.KPay Cert.KernelIdeal.KBlocks Cert.Tiles

variable (m : (ℓ : Loc nD τ sig) → Buf (Elt Ideal) ℓ)

/-- The predicted times on core c. -/
abbrev ptOf (c : Dev nD) : Cert.Spec.ST.Idx → EReal := m ((c : Thread nD τ).loc main_arg0)
/-- The predicted causal probabilities on core c. -/
abbrev pcOf (c : Dev nD) : Cert.Spec.SC.Idx → EReal := m ((c : Thread nD τ).loc main_arg1)
/-- The target times on core c. -/
abbrev ttOf (c : Dev nD) : Cert.Spec.ST.Idx → EReal := m ((c : Thread nD τ).loc main_arg2)
/-- The causal labels on core c. -/
abbrev tcOf (c : Dev nD) : Cert.Spec.SC.Idx → BitVec 32 := m ((c : Thread nD τ).loc main_arg3)
/-- The precedence labels on core c. -/
abbrev tpOf (c : Dev nD) : Cert.Spec.SC.Idx → BitVec 32 := m ((c : Thread nD τ).loc main_arg4)

/-! ## A point's partial sums over the argument arrays -/

/-- The ordering partial of point t: the ordering hinge summed over the tile's rows and columns. -/
theorem ordPoint (c : Dev nD) (t : Fin cfg0.N) :
    pOrd (F := Ideal) (iblk m c 3 t) (iblk m c 4 t) (iblk m c 5 t) (iblk m c 6 t) (ix2 (0 : Fin 1) (0 : Fin 1))
      = ∑ r : Fin 512, ∑ cc : Fin 1024, Cert.Spec.ordE (ptOf m c) (ttOf m c) (bOf t) (rowOf (qOf t) r) (colOf (kOf t) cc) := by
  refine (pOrd_apply (iblk m c 3 t) (iblk m c 4 t) (iblk m c 5 t) (iblk m c 6 t)).trans ?_
  refine Finset.sum_congr rfl fun r _ => Finset.sum_congr rfl fun cc _ => ?_
  rw [iblk3_apply m c t r, iblk4_apply m c t cc, iblk5_apply m c t r, iblk6_apply m c t cc]
  rfl

/-- The causality partial of point t: the negated clamped log-likelihood summed over the tile. -/
theorem causPoint (c : Dev nD) (t : Fin cfg0.N) :
    pCaus (F := Ideal) (iblk m c 0 t) (iblk m c 1 t) (ix2 (0 : Fin 1) (0 : Fin 1))
      = ∑ r : Fin 512, ∑ cc : Fin 1024, -Cert.Spec.causE (pcOf m c) (tcOf m c) (bOf t) (rowOf (qOf t) r) (colOf (kOf t) cc) := by
  refine (pCaus_apply (iblk m c 0 t) (iblk m c 1 t)).trans ?_
  refine Finset.sum_congr rfl fun r _ => Finset.sum_congr rfl fun cc _ => ?_
  rw [iblk0_apply m c t r cc, iblk1_apply m c t r cc]
  rfl

/-- The transitivity partial over a tile, from the tile's two coordinates and the three blocks the body reads: the
    multiplicity of the pair of positions times the precedence bit, times the transitivity hinge, summed over the
    tile's rows and columns. -/
def transTile (q0 : Fin 4) (q1 : Fin 2) (x2 : Vec Ideal S1x512x1024 .i32) (x3 : Vec Ideal S1x512x1 .f32)
    (x4 : Vec Ideal S1x1x1024 .f32) : EReal :=
  ∑ r : Fin 512, ∑ cc : Fin 1024,
    (Cert.Spec.mult (rowOf q0 r) (colOf q1 cc) * Cert.Spec.ind (IntOp.cmpi .sgt (x2 (ix3 (0 : Fin 1) r cc)) 0#32))
      * max (Ideal.ofBits .f32 0x3DCCCCCD#32 - (x4 (ix3 (0 : Fin 1) (0 : Fin 1) cc) - x3 (ix3 (0 : Fin 1) r (0 : Fin 1))))
          (Ideal.ofBits .f32 0x00000000#32)

/-- The body's transitivity accumulation adds the tile's transitivity partial on every lane. -/
theorem accTrans_eq_transTile (i : grid0.Coords) (x2 : Vec Ideal S1x512x1024 .i32) (x3 : Vec Ideal S1x512x1 .f32)
    (x4 : Vec Ideal S1x1x1024 .f32) (xo : Vec Ideal S1x1x128 .f32) (y : S1x1x128.Idx) :
    accTrans (F := Ideal) i x2 x3 x4 xo y = xo y + transTile (i 0) (i 1) x2 x3 x4 :=
  accTrans_apply i x2 x3 x4 xo y

/-- The transitivity partial of point t: the weight of the pair of positions (batch 0's precedence label gating
    the multiplicity) times the transitivity hinge, summed over the tile. -/
theorem transPoint (c : Dev nD) (t : Fin cfg0.N) :
    transTile (grid0.coords t 0) (grid0.coords t 1) (iblk m c 2 t) (iblk m c 3 t) (iblk m c 4 t)
      = ∑ r : Fin 512, ∑ cc : Fin 1024,
          Cert.Spec.wE (tpOf m c) (rowOf (qOf t) r) (colOf (kOf t) cc)
            * Cert.Spec.violE (ptOf m c) (bOf t) (rowOf (qOf t) r) (colOf (kOf t) cc) := by
  unfold transTile
  refine Finset.sum_congr rfl fun r _ => Finset.sum_congr rfl fun cc _ => ?_
  rw [iblk2_apply m c t r cc, iblk3_apply m c t r, iblk4_apply m c t cc]
  rfl

/-- The body's transitivity accumulation at point t, over the argument arrays. -/
theorem accTransPoint (c : Dev nD) (t : Fin cfg0.N) (xo : Vec Ideal S1x1x128 .f32) (y : S1x1x128.Idx) :
    accTrans (F := Ideal) (grid0.coords t) (iblk m c 2 t) (iblk m c 3 t) (iblk m c 4 t) xo y
      = xo y + ∑ r : Fin 512, ∑ cc : Fin 1024,
          Cert.Spec.wE (tpOf m c) (rowOf (qOf t) r) (colOf (kOf t) cc)
            * Cert.Spec.violE (ptOf m c) (bOf t) (rowOf (qOf t) r) (colOf (kOf t) cc) :=
  (accTrans_eq_transTile (grid0.coords t) (iblk m c 2 t) (iblk m c 3 t) (iblk m c 4 t) xo y).trans
    (congrArg (xo y + ·) (transPoint m c t))

/-! ## The sum over all grid points -/

/-- The sum over the 32 points (row tile q, then the tile's eight points j = 4·k + b) of double sums over a tile is
    the triple sum over batch and the two positions. -/
theorem sum_points (g : Fin 4 → Fin 2048 → Fin 2048 → EReal) (p : ℕ → EReal)
    (hp : ∀ (q : Fin 4) (k : Fin 2) (b : Fin 4),
      p (8 * q.val + (4 * k.val + b.val)) = ∑ r : Fin 512, ∑ cc : Fin 1024, g b (rowOf q r) (colOf k cc)) :
    ∑ q : Fin 4, ∑ j : Fin 8, p (8 * q.val + j.val) = ∑ b : Fin 4, ∑ i : Fin 2048, ∑ j : Fin 2048, g b i j := by
  -- a row tile's eight points are the pairs (column tile, batch)
  have hL : ∀ q : Fin 4, ∑ j : Fin 8, p (8 * q.val + j.val)
      = ∑ k : Fin 2, ∑ b : Fin 4, ∑ r : Fin 512, ∑ cc : Fin 1024, g b (rowOf q r) (colOf k cc) := by
    intro q
    refine (Cert.Spec.sum_fin_mul 2 4 (fun j : Fin (2 * 4) => p (8 * q.val + j.val))).trans ?_
    exact Finset.sum_congr rfl fun k _ => Finset.sum_congr rfl fun b _ => hp q k b
  -- the positions are the pairs (tile, offset)
  have hR : ∀ b : Fin 4, ∑ i : Fin 2048, ∑ j : Fin 2048, g b i j
      = ∑ q : Fin 4, ∑ r : Fin 512, ∑ k : Fin 2, ∑ cc : Fin 1024, g b (rowOf q r) (colOf k cc) := by
    intro b
    refine (Cert.Tiles.sum_rows fun i => ∑ j : Fin 2048, g b i j).trans ?_
    exact Finset.sum_congr rfl fun q _ => Finset.sum_congr rfl fun r _ => Cert.Tiles.sum_cols fun j => g b (rowOf q r) j
  calc ∑ q : Fin 4, ∑ j : Fin 8, p (8 * q.val + j.val)
      = ∑ q : Fin 4, ∑ k : Fin 2, ∑ b : Fin 4, ∑ r : Fin 512, ∑ cc : Fin 1024, g b (rowOf q r) (colOf k cc) :=
        Finset.sum_congr rfl fun q _ => hL q
    _ = ∑ q : Fin 4, ∑ b : Fin 4, ∑ k : Fin 2, ∑ r : Fin 512, ∑ cc : Fin 1024, g b (rowOf q r) (colOf k cc) :=
        Finset.sum_congr rfl fun q _ => Finset.sum_comm
    _ = ∑ b : Fin 4, ∑ q : Fin 4, ∑ k : Fin 2, ∑ r : Fin 512, ∑ cc : Fin 1024, g b (rowOf q r) (colOf k cc) :=
        Finset.sum_comm
    _ = ∑ b : Fin 4, ∑ q : Fin 4, ∑ r : Fin 512, ∑ k : Fin 2, ∑ cc : Fin 1024, g b (rowOf q r) (colOf k cc) :=
        Finset.sum_congr rfl fun b _ => Finset.sum_congr rfl fun q _ => Finset.sum_comm
    _ = ∑ b : Fin 4, ∑ i : Fin 2048, ∑ j : Fin 2048, g b i j :=
        Finset.sum_congr rfl fun b _ => (hR b).symm

end Cert.KernelIdeal.KSum

end
-- ==== Proof.KValue.lean ====
/-
  The idealized kernel's four results are the specification's four losses of its argument arrays.

  After the last point of row tile `q` an accumulator's lanes hold the tile's eight partial sums added up; a partial sum
  of the point (q, k, b) is the double sum, over the 512 rows of row tile `q` and the 1024 columns of column tile `k`,
  of the element function at batch `b`. The region's output arrays hold those totals, one row per row tile, and the
  host tail adds the four rows and divides. The sum over row tiles, column tiles, batches, rows and columns is the sum
  over batch and the two positions, in another order.
-/
import proofs.«118790_j42803644072824_2_alg».proof.Proof.KAcc
import proofs.«118790_j42803644072824_2_alg».proof.Proof.KFinal
import proofs.«118790_j42803644072824_2_alg».proof.Proof.KTail
import proofs.«118790_j42803644072824_2_alg».proof.Proof.KSum
import proofs.«118790_j42803644072824_2_alg».proof.Proof.KBlocks
import proofs.«118790_j42803644072824_2_alg».proof.Proof.Spec
import proofs.«118790_j42803644072824_2_alg».proof.Proof.Tiles
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.KOut Cert.KernelIdeal.KAcc Cert.KernelIdeal.KBlocks Cert.KernelIdeal.KSum
  Cert.KernelIdeal.KFinal Cert.KernelIdeal.KTail Idealize.ShloMosaic.ValueIdx Cert.AccFold Cert.Tiles

variable (m : (ℓ : Loc nD τ sig) → Buf (Elt Ideal) ℓ) (ρ : Dev nD → PrngReg)

/-- The position of the point (q, k, b) is on the grid, and its coordinates are (q, k, b). -/
theorem point_lt (q : Fin 4) (k : Fin 2) (b : Fin 4) : 8 * q.val + (4 * k.val + b.val) < cfg0.N := by
  have := q.isLt; have := k.isLt; have := b.isLt
  rw [show cfg0.N = 32 from N_0]; omega

theorem point_coords (q : Fin 4) (k : Fin 2) (b : Fin 4) :
    qOf ⟨8 * q.val + (4 * k.val + b.val), point_lt q k b⟩ = q ∧ kOf ⟨8 * q.val + (4 * k.val + b.val), point_lt q k b⟩ = k
      ∧ bOf ⟨8 * q.val + (4 * k.val + b.val), point_lt q k b⟩ = b := by
  have hq := q.isLt; have hk := k.isLt; have hb := b.isLt
  obtain ⟨e0, e1, e2⟩ := coords_val ⟨8 * q.val + (4 * k.val + b.val), point_lt q k b⟩
  refine ⟨Fin.ext ?_, Fin.ext ?_, Fin.ext ?_⟩
  · rw [e0]; show (8 * q.val + (4 * k.val + b.val)) / 8 = q.val; omega
  · rw [e1]; show (8 * q.val + (4 * k.val + b.val)) / 4 % 2 = k.val; omega
  · rw [e2]; show (8 * q.val + (4 * k.val + b.val)) % 4 = b.val; omega

/-- The three partial sums of the point (q, k, b), as double sums of the specification's element functions. -/
theorem pO_point (c : Dev nD) (q : Fin 4) (k : Fin 2) (b : Fin 4) :
    pO m c (8 * q.val + (4 * k.val + b.val))
      = ∑ r : Fin 512, ∑ cc : Fin 1024, Cert.Spec.ordE (ptOf m c) (ttOf m c) b (rowOf q r) (colOf k cc) := by
  obtain ⟨e0, e1, e2⟩ := point_coords q k b
  unfold pO
  rw [dif_pos (point_lt q k b), ordPoint m c ⟨_, point_lt q k b⟩, e0, e1, e2]

theorem pC_point (c : Dev nD) (q : Fin 4) (k : Fin 2) (b : Fin 4) :
    pC m c (8 * q.val + (4 * k.val + b.val))
      = ∑ r : Fin 512, ∑ cc : Fin 1024, -Cert.Spec.causE (pcOf m c) (tcOf m c) b (rowOf q r) (colOf k cc) := by
  obtain ⟨e0, e1, e2⟩ := point_coords q k b
  unfold pC
  rw [dif_pos (point_lt q k b), causPoint m c ⟨_, point_lt q k b⟩, e0, e1, e2]

theorem pT_point (c : Dev nD) (q : Fin 4) (k : Fin 2) (b : Fin 4) :
    pT m c (8 * q.val + (4 * k.val + b.val))
      = ∑ r : Fin 512, ∑ cc : Fin 1024, Cert.Spec.wE (tpOf m c) (rowOf q r) (colOf k cc) * Cert.Spec.violE (ptOf m c) b (rowOf q r) (colOf k cc) := by
  obtain ⟨e0, e1, e2⟩ := point_coords q k b
  unfold pT
  rw [dif_pos (point_lt q k b)]
  have e := transPoint m c ⟨_, point_lt q k b⟩
  refine Eq.trans e ?_
  rw [e0, e1, e2]

/-- The accumulated totals over the four row tiles are the specification's three sums. -/
theorem ord_total (c : Dev nD) : ∑ q : Fin 4, run (pO m c) (8 * q.val + 7) = Cert.Spec.ordSum (ptOf m c) (ttOf m c) := by
  simp only [run_block]
  exact sum_points (fun b i j => Cert.Spec.ordE (ptOf m c) (ttOf m c) b i j) (pO m c) (pO_point m c)

theorem caus_total (c : Dev nD) : ∑ q : Fin 4, run (pC m c) (8 * q.val + 7) = Cert.Spec.causSum (pcOf m c) (tcOf m c) := by
  simp only [run_block]
  exact sum_points (fun b i j => -Cert.Spec.causE (pcOf m c) (tcOf m c) b i j) (pC m c) (pC_point m c)

theorem trans_total (c : Dev nD) : ∑ q : Fin 4, run (pT m c) (8 * q.val + 7) = Cert.Spec.transSum (ptOf m c) (tpOf m c) := by
  simp only [run_block]
  exact sum_points (fun b i k => Cert.Spec.wE (tpOf m c) i k * Cert.Spec.violE (ptOf m c) b i k) (pT m c) (pT_point m c)

/-- The three output arrays of the region: row `q` holds the accumulated total of row tile `q`. -/
def arr7 (c : Dev nD) : S4x1x128.Idx → EReal := fun i => run (pO m c) (8 * (i 0).val + 7)
def arr8 (c : Dev nD) : S4x1x128.Idx → EReal := fun i => run (pC m c) (8 * (i 0).val + 7)
def arr9 (c : Dev nD) : S4x1x128.Idx → EReal := fun i => run (pT m c) (8 * (i 0).val + 7)

theorem loss7 (c : Dev nD) : lossOf (arr7 m c) 0x4B800000#32 = Cert.Spec.ordLoss (ptOf m c) (ttOf m c) := by
  unfold lossOf Cert.Spec.ordLoss
  rw [← ord_total m c]; rfl
theorem loss8 (c : Dev nD) : lossOf (arr8 m c) 0x4B800000#32 = Cert.Spec.causLoss (pcOf m c) (tcOf m c) := by
  unfold lossOf Cert.Spec.causLoss
  rw [← caus_total m c]; rfl
theorem loss9 (c : Dev nD) : lossOf (arr9 m c) 0x4FAA6AB0#32 = Cert.Spec.transLoss (ptOf m c) (tpOf m c) := by
  unfold lossOf Cert.Spec.transLoss
  rw [← trans_total m c]; rfl

/-- The run of the idealized kernel: its four results are the specification's losses of its arguments, which end unchanged. -/
theorem run_kernel : θ_run defs (onTc (τ := τ) (main (F := Ideal))) ⟨m, fun _ => 0, ρ⟩ (fun r => ∀ c : Dev nD,
      r.2.mem ((c.tc : Thread nD τ).loc main_v14) = (fun _ => Cert.Spec.ordLoss (ptOf m c) (ttOf m c))
    ∧ r.2.mem ((c.tc : Thread nD τ).loc main_v15) = (fun _ => Cert.Spec.causLoss (pcOf m c) (tcOf m c))
    ∧ r.2.mem ((c.tc : Thread nD τ).loc main_v16) = (fun _ => Cert.Spec.transLoss (ptOf m c) (tpOf m c))
    ∧ r.2.mem ((c.tc : Thread nD τ).loc main_v21) = (fun _ => Cert.Spec.totalLoss (ptOf m c) (ttOf m c) (pcOf m c) (tcOf m c) (tpOf m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => by
      obtain ⟨h14, h15, h16, h21, hargs⟩ := h c
      refine ⟨h14.trans ?_, h15.trans ?_, h16.trans ?_, h21.trans ?_, hargs⟩
      · rw [loss7]
      · rw [loss8]
      · rw [loss9]
      · rw [loss7, loss8, loss9]; rfl)
    (run_results m ρ (arr7 m) (arr8 m) (arr9 m)
      (fun c => final7_of m c (run (pO m c)) (fun n h y => (outsAt_eq m c n h).1 y))
      (fun c => final8_of m c (run (pC m c)) (fun n h y => (outsAt_eq m c n h).2.1 y))
      (fun c => final9_of m c (run (pT m c)) (fun n h y => (outsAt_eq m c n h).2.2 y)))

end Cert.KernelIdeal.KValue

end
-- ==== Proof.RefOrdCaus.lean ====
/-
  The reference's first two results are the specification's ordering and causality losses.

  Ordering.  The reference broadcasts the predicted and target times along the two position axes, forms
  `1/2 − (pt b i − pt b j)·[tt b i < tt b j]`, takes the larger of it and zero, adds every entry up from zero and
  divides by 2^24.  Read at the index (b, i, j) the entry is the specification's hinge, and a sum over a rank-3 index
  set is the triple sum over its coordinates.

  Causality.  The entry at (b, i, j) is `t·max(log p, −100) + (1 − t)·max(log(1 + −p), −100)` with `t` the label as a
  number.  A label is 0 or 1, so one of the two products is zero and the other is the clamped logarithm itself: the
  entry is the clamped logarithm of `p` at a nonzero label and of `1 − p` at a zero one.  When `p` is a real number
  that clamped logarithm is a real number (the logarithm is real or −∞ and the clamp is real), so negation passes
  through the finite sum entry by entry; and minus a quotient by the nonzero real 2^24 is the quotient of the minus.
-/
import proofs.«118790_j42803644072824_2_alg».proof.Proof.Gen.ReferenceIdeal.Read
import proofs.«118790_j42803644072824_2_alg».proof.Proof.Spec
import proofs.«118790_j42803644072824_2_alg».proof.Proof.LibIdx3
import Idealize.ShloMosaic.Lib.IdealHost

noncomputable section

namespace Cert.RefSide

open Cert.ReferenceIdeal Cert.ReferenceIdeal.Read Idealize.ShloMosaic Idealize.ShloMosaic.ValueIdx

/-! ## Ordering -/

/-- Broadcasting a (batch, position) array along a new last axis and then over it reads the row coordinate. -/
theorem idx_row0 (b : Fin 4) (i j : Fin 2048) : idx_main_v0 (idx_main_v2 (ix3 b i j)) = ix2 b i := by
  funext a; match a with | ⟨0, _⟩ => rfl | ⟨1, _⟩ => rfl

/-- Broadcasting a (batch, position) array along a new middle axis and then over it reads the column coordinate. -/
theorem idx_col0 (b : Fin 4) (i j : Fin 2048) : idx_main_v1 (idx_main_v3 (ix3 b i j)) = ix2 b j := by
  funext a; match a with | ⟨0, _⟩ => rfl | ⟨1, _⟩ => rfl

theorem idx_row2 (b : Fin 4) (i j : Fin 2048) : idx_main_v5 (idx_main_v7 (ix3 b i j)) = ix2 b i := by
  funext a; match a with | ⟨0, _⟩ => rfl | ⟨1, _⟩ => rfl

theorem idx_col2 (b : Fin 4) (i j : Fin 2048) : idx_main_v6 (idx_main_v8 (ix3 b i j)) = ix2 b j := by
  funext a; match a with | ⟨0, _⟩ => rfl | ⟨1, _⟩ => rfl

/-- The entry of the hinge array at (b, i, j) is the specification's hinge. -/
theorem ord_elt (x0 x2 : (⟨S4x2048, .f32⟩ : BufTy).Contents (Elt Ideal)) (b : Fin 4) (i j : Fin 2048) :
    val_main_v14 (F := Ideal) x0 x2 (ix3 b i j) = Cert.Spec.ordE x0 x2 b i j := by
  rw [val_main_v14_apply, val_main_v13_apply, val_main_v12_apply, val_main_cst_apply, val_main_v11_apply,
    val_main_v4_apply, val_main_v2_apply, val_main_v0_apply, val_main_v3_apply, val_main_v1_apply,
    val_main_v10_apply, val_main_v9_apply, val_main_v7_apply, val_main_v5_apply, val_main_v8_apply,
    val_main_v6_apply, val_main_call0_v0_apply, val_main_call0_cst_apply, idx_row0, idx_col0, idx_row2, idx_col2]
  rfl

theorem ref_ord (x0 x2 : (⟨S4x2048, .f32⟩ : BufTy).Contents (Elt Ideal)) :
    val_main_v16 (F := Ideal) x0 x2 = fun _ => Cert.Spec.ordLoss x0 x2 := by
  funext i
  rw [val_main_v16_apply, val_main_v15_apply, val_main_cst_1_apply, val_main_cst_0_apply, Cert.Idx3.sum_idx3]
  simp only [ord_elt]
  rw [Ideal.ofBits_def, Ideal.ofBits_zero_f32, zero_add]
  rfl

/-! ## Causality -/

/-- The word of −100. -/
theorem ofBits_neg_hundred : Ideal.ofBits .f32 0xC2C80000#32 = ((-100 : ℝ) : EReal) := by
  simp [Ideal.ofBits, Ideal.ieee, -EReal.coe_mul, -EReal.coe_neg]; norm_num

/-- The word of 2^24. -/
theorem ofBits_two_pow_24 : Ideal.ofBits .f32 0x4B800000#32 = ((16777216 : ℝ) : EReal) := by
  simp [Ideal.ofBits, Ideal.ieee, -EReal.coe_mul]; norm_num

/-- A signed 32-bit word as an extended real is its integer. -/
theorem sitofp32 (w : BitVec 32) : FloatOps.sitofp (F := Ideal) .f32 w = ((w.toInt : ℝ) : EReal) := rfl

theorem sitofp_zero : FloatOps.sitofp (F := Ideal) .f32 (0#32 : BitVec 32) = 0 := by
  rw [sitofp32]
  have h : (0#32 : BitVec 32).toInt = 0 := by decide
  rw [h, Int.cast_zero, EReal.coe_zero]

theorem sitofp_one : FloatOps.sitofp (F := Ideal) .f32 (1#32 : BitVec 32) = 1 := by
  rw [sitofp32]
  have h : (1#32 : BitVec 32).toInt = 1 := by decide
  rw [h, Int.cast_one, EReal.coe_one]

/-- The clamped logarithm of a real number is a real number. -/
theorem clampLog_real (r : ℝ) : ∃ s : ℝ, Cert.Spec.clampLog (r : EReal) = (s : EReal) := by
  unfold Cert.Spec.clampLog
  rw [ofBits_neg_hundred, Ideal.log_coe]
  by_cases h : r ≤ 0
  · rw [if_pos h, max_eq_right bot_le]; exact ⟨_, rfl⟩
  · rw [if_neg h]; exact ⟨max (Real.log r) (-100), (EReal.coe_strictMono.monotone.map_max).symm⟩

/-- The entry at (b, i, j): one of the two products vanishes, the other is the clamped logarithm. -/
theorem caus_elt (x1 : (⟨S4x2048x2048, .f32⟩ : BufTy).Contents (Elt Ideal))
    (x3 : (⟨S4x2048x2048, .i32⟩ : BufTy).Contents (Elt Ideal)) (b : Fin 4) (i j : Fin 2048)
    (ht : x3 (ix3 b i j) = 0#32 ∨ x3 (ix3 b i j) = 1#32) :
    val_main_v29 (F := Ideal) x1 x3 (ix3 b i j) = Cert.Spec.causE x1 x3 b i j := by
  simp only [val_main_v29_apply, val_main_v25_apply, val_main_v28_apply, val_main_v27_apply, val_main_v17_apply,
    val_main_v20_apply, val_main_v18_apply, val_main_v19_apply, val_main_cst_2_apply, val_main_v26_apply,
    val_main_cst_4_apply, val_main_v24_apply, val_main_v22_apply, val_main_v21_apply, val_main_v23_apply,
    val_main_cst_3_apply]
  unfold Cert.Spec.causE Cert.Spec.clampLog
  rcases ht with h | h
  · rw [h, if_pos rfl, sitofp_zero]
    simp only [Ideal.addf_def, Ideal.mulf_def, Ideal.subf_def, Ideal.maximumf_def, Ideal.hostUnary_log_def,
      Ideal.hostUnary_log1p_def, Ideal.hostNegf_def, Ideal.negf_def, Ideal.ofBits_def]
    rw [zero_mul, zero_add, Ideal.ofBits_one_f32, sub_zero, one_mul, Ideal.log1p, sub_eq_add_neg]
  · rw [h, if_neg (by decide), sitofp_one]
    simp only [Ideal.addf_def, Ideal.mulf_def, Ideal.subf_def, Ideal.maximumf_def, Ideal.hostUnary_log_def,
      Ideal.hostUnary_log1p_def, Ideal.hostNegf_def, Ideal.negf_def, Ideal.ofBits_def]
    rw [one_mul, Ideal.ofBits_one_f32]
    have h0 : (1 : EReal) - 1 = 0 := by
      rw [← EReal.coe_one, ← EReal.coe_sub, sub_self, EReal.coe_zero]
    rw [h0, zero_mul, add_zero]

/-- Every entry is a real number when every probability is. -/
theorem caus_real (x1 : (⟨S4x2048x2048, .f32⟩ : BufTy).Contents (Elt Ideal))
    (x3 : (⟨S4x2048x2048, .i32⟩ : BufTy).Contents (Elt Ideal))
    (hpc : ∀ i, ∃ r : ℝ, x1 i = (r : EReal)) (htc : ∀ i, x3 i = 0#32 ∨ x3 i = 1#32) (k : S4x2048x2048.Idx) :
    ∃ r : ℝ, val_main_v29 (F := Ideal) x1 x3 k = (r : EReal) := by
  obtain ⟨b, i, j, rfl⟩ : ∃ (b : Fin 4) (i j : Fin 2048), k = ix3 b i j := ⟨k 0, k 1, k 2, eq_ix3 k⟩
  rw [caus_elt x1 x3 b i j (htc _)]
  unfold Cert.Spec.causE
  obtain ⟨r, hr⟩ := hpc (ix3 b i j)
  rw [hr]
  split
  · rw [Ideal.ofBits_one_f32, ← EReal.coe_one, ← EReal.coe_sub]; exact clampLog_real _
  · exact clampLog_real r

/-- Negation passes through a finite sum of real numbers, entry by entry. -/
theorem neg_sum_of_real {ι : Type*} (s : Finset ι) (g : ι → EReal) (hg : ∀ k, ∃ r : ℝ, g k = (r : EReal)) :
    -(∑ k ∈ s, g k) = ∑ k ∈ s, -g k := by
  classical
  induction s using Finset.induction_on with
  | empty => rw [Finset.sum_empty, Finset.sum_empty, neg_zero]
  | insert a s ha ih =>
    rw [Finset.sum_insert ha, Finset.sum_insert ha, ← ih]
    obtain ⟨r, hr⟩ := hg a
    rw [hr, EReal.neg_add (Or.inl (EReal.coe_ne_bot r)) (Or.inl (EReal.coe_ne_top r)), sub_eq_add_neg]

theorem ref_caus (x1 : (⟨S4x2048x2048, .f32⟩ : BufTy).Contents (Elt Ideal))
    (x3 : (⟨S4x2048x2048, .i32⟩ : BufTy).Contents (Elt Ideal))
    (hpc : ∀ i, ∃ r : ℝ, x1 i = (r : EReal)) (htc : ∀ i, x3 i = 0#32 ∨ x3 i = 1#32) :
    val_main_v32 (F := Ideal) x1 x3 = fun _ => Cert.Spec.causLoss x1 x3 := by
  funext i
  rw [val_main_v32_apply, val_main_v31_apply, val_main_v30_apply, val_main_cst_6_apply, val_main_cst_5_apply,
    Ideal.hostNegf_def, Ideal.negf_def, Ideal.hostDivf_def, Ideal.ofBits_def, Ideal.ofBits_def,
    Ideal.ofBits_zero_f32, zero_add]
  unfold Cert.Spec.causLoss Cert.Spec.causSum
  rw [ofBits_two_pow_24, Ideal.div_coe (y := 16777216) (by norm_num), Ideal.div_coe (y := 16777216) (by norm_num),
    ← EReal.neg_mul]
  congr 1
  rw [neg_sum_of_real _ _ (fun k => caus_real x1 x3 hpc htc k), Cert.Idx3.sum_idx3]
  refine Finset.sum_congr rfl fun b _ => Finset.sum_congr rfl fun i _ => Finset.sum_congr rfl fun j _ => ?_
  rw [caus_elt x1 x3 b i j (htc _)]

end Cert.RefSide

end
-- ==== Proof.RefTrans.lean ====
/-
  The reference's third and fourth results, read one operation at a time, against the specification.

  The third result is the transitivity loss.  The program computes, for every pair of positions (i, k), the weight
  w i k (the number of positions strictly between them when there is one, gated by batch 0's precedence label) times
  the mean over the batch of the hinge max (1/10 − (pt b k − pt b i)) 0, sums over all pairs and divides by C(2048, 3).
  The specification sums weight · hinge over every (b, i, k) and divides by 4 · C(2048, 3).  Both are the same real
  number once every term is a real: the predicted times are reals by hypothesis, so every hinge is a real, and every
  weight is an integer times 0 or 1.  Among reals the identity is distributivity and a change of summation order.

  The fourth result is the weighted sum of the first three, by unfolding.
-/
import proofs.«118790_j42803644072824_2_alg».proof.Proof.Gen.ReferenceIdeal.Read
import proofs.«118790_j42803644072824_2_alg».proof.Proof.Spec
import proofs.«118790_j42803644072824_2_alg».proof.Proof.LibIdx3
import Idealize.ShloMosaic.PureOps.Ideal
import Idealize.ShloMosaic.PureOps.Ideal.Laws
import Idealize.ShloMosaic.Lib.ValueIdx

noncomputable section

namespace Cert.RefSide

open Cert.ReferenceIdeal Cert.ReferenceIdeal.Read Idealize.ShloMosaic Idealize.ShloMosaic.ValueIdx

/-! ### The fourth result -/

/-- The total is 1 · ordering + 0.8 · causality + 0.6 · transitivity, the weights as their binary words. -/
theorem ref_total (x0 : (⟨S4x2048, .f32⟩ : BufTy).Contents (Elt Ideal)) (x1 : (⟨S4x2048x2048, .f32⟩ : BufTy).Contents (Elt Ideal))
    (x2 : (⟨S4x2048, .f32⟩ : BufTy).Contents (Elt Ideal)) (x3 x4 : (⟨S4x2048x2048, .i32⟩ : BufTy).Contents (Elt Ideal)) (i : S_.Idx) :
    val_main_v69 (F := Ideal) x0 x1 x2 x3 x4 i
      = Ideal.ofBits .f32 0x3F800000#32 * val_main_v16 (F := Ideal) x0 x2 i
          + Ideal.ofBits .f32 0x3F4CCCCD#32 * val_main_v32 (F := Ideal) x1 x3 i
          + Ideal.ofBits .f32 0x3F19999A#32 * val_main_v64 (F := Ideal) x0 x4 i := by
  rw [val_main_v69_apply, val_main_v67_apply, val_main_v65_apply, val_main_v66_apply, val_main_v68_apply,
    val_main_cst_15_apply, val_main_cst_16_apply, val_main_cst_17_apply]
  rfl

/-! ### Words that are reals -/

/-- The word of 4. -/
theorem word_four : Ideal.ofBits .f32 0x40800000#32 = ((4 : ℝ) : EReal) := by
  simp [Ideal.ofBits, Ideal.ieee, -EReal.coe_mul]; norm_num

/-- The word of C(2048, 3) = 1429559296. -/
theorem word_choose : Ideal.ofBits .f32 0x4EAA6AB0#32 = ((1429559296 : ℝ) : EReal) := by
  simp [Ideal.ofBits, Ideal.ieee, -EReal.coe_mul]; norm_num

/-- The word of 4 · C(2048, 3) = 5718237184. -/
theorem word_four_choose : Ideal.ofBits .f32 0x4FAA6AB0#32 = ((5718237184 : ℝ) : EReal) := by
  simp [Ideal.ofBits, Ideal.ieee, -EReal.coe_mul]; norm_num

/-- The word nearest 1/10 is some real (its exponent field is not all ones). -/
theorem word_eps_real : ∃ e : ℝ, Ideal.ofBits .f32 0x3DCCCCCD#32 = (e : EReal) := by
  simp [Ideal.ofBits, Ideal.ieee, -EReal.coe_mul]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among reals: the pair sum of weight · (batch sum · 1/4), over C, is the triple sum of weight · hinge over 4 · C. -/
theorem real_identity {ι κ β : Type*} [Fintype ι] [Fintype κ] [Fintype β] (W : ι → κ → ℝ) (V : β → ι → κ → ℝ) :
    (∑ i, ∑ k, W i k * ((∑ b, V b i k) * (1 / 4))) * (1 / 1429559296)
      = (∑ b, ∑ i, ∑ k, W i k * V b i k) * (1 / 5718237184) := by
  have h : ∑ b, ∑ i, ∑ k, W i k * V b i k = ∑ i, ∑ k, W i k * ∑ b, V b i k := by
    rw [Finset.sum_comm]
    refine Finset.sum_congr rfl fun i _ => ?_
    rw [Finset.sum_comm]
    refine Finset.sum_congr rfl fun k _ => ?_
    rw [Finset.mul_sum]
  rw [h]
  simp only [← mul_assoc, ← Finset.sum_mul]
  rw [mul_assoc]
  congr 1
  norm_num

/-! ### The reference's stages at an index -/

/-- The difference of the two position counters at the pair (i, k) is the word k − i. -/
theorem gap_at (i k : Fin 2048) : val_main_v38 (F := Ideal) (ix2 i k) = Cert.Spec.gap i k := by
  rw [val_main_v38_apply, val_main_v36_apply, val_main_v34_apply, val_main_v33_apply, val_main_v37_apply,
    val_main_v35_apply, val_main_v33_apply]
  rfl

/-- The converted selection at (i, k) is the multiplicity: converting after selecting is selecting after converting,
    the zero word converting to zero. -/
theorem mult_at (i k : Fin 2048) : val_main_v44 (F := Ideal) (ix2 i k) = Cert.Spec.mult i k := by
  rw [val_main_v44_apply, val_main_v43_apply, val_main_v40_apply, val_main_v42_apply, gap_at, val_main_v39_apply,
    val_main_c_apply, val_main_v41_apply, val_main_c_7_apply, val_main_call1_v1_apply, val_main_call1_v0_apply,
    val_main_c_8_apply]
  unfold Cert.Spec.mult Scalar.select
  by_cases h : IntOp.cmpi .sge (Cert.Spec.gap i k) 2#32 = 1
  · rw [if_pos h, if_pos h]; rfl
  · rw [if_neg h, if_neg h]
    show (((0#32 : BitVec 32).toInt : ℝ) : EReal) = 0
    simp

/-- The precedence indicator at (i, k) reads batch 0's label at (i, k). -/
theorem ind_at (x4 : (⟨S4x2048x2048, .i32⟩ : BufTy).Contents (Elt Ideal)) (i k : Fin 2048) :
    val_main_v49 (F := Ideal) x4 (ix2 i k) = Cert.Spec.ind (IntOp.cmpi .sgt (x4 (ix3 (0 : Fin 4) i k)) 0#32) := by
  rw [val_main_v49_apply, val_main_v48_apply, val_main_v46_apply, val_main_v45_apply, val_main_v47_apply,
    val_main_c_9_apply]
  have hidx : idx_main_v45 (idx_main_v46 (ix2 i k)) = ix3 (0 : Fin 4) i k := by
    have hi := i.isLt; have hk := k.isLt
    funext a
    match a with
    | ⟨0, _⟩ => rfl
    | ⟨1, _⟩ => exact Fin.ext (by show (i.val * 2048 + k.val) / 2048 % 2048 = i.val; omega)
    | ⟨2, _⟩ => exact Fin.ext (by show (i.val * 2048 + k.val) % 2048 = k.val; omega)
  rw [hidx]
  rfl

/-- The hinge at (b, i, k). -/
theorem viol_at (x0 : (⟨S4x2048, .f32⟩ : BufTy).Contents (Elt Ideal)) (b : Fin 4) (i k : Fin 2048) :
    val_main_v58 (F := Ideal) x0 (ix3 b i k) = Cert.Spec.violE x0 b i k := by
  rw [val_main_v58_apply, val_main_v57_apply, val_main_v56_apply, val_main_cst_10_apply, val_main_v55_apply,
    val_main_v53_apply, val_main_v51_apply, val_main_v54_apply, val_main_v52_apply, val_main_call2_v0_apply,
    val_main_call2_cst_apply]
  have h1 : idx_main_v51 (idx_main_v53 (ix3 b i k)) = ix2 b k := by
    funext a
    match a with
    | ⟨0, _⟩ => rfl
    | ⟨1, _⟩ => rfl
  have h2 : idx_main_v52 (idx_main_v54 (ix3 b i k)) = ix2 b i := by
    funext a
    match a with
    | ⟨0, _⟩ => rfl
    | ⟨1, _⟩ => rfl
  rw [h1, h2]
  rfl

/-- The batch mean of the hinge at (i, k). -/
theorem mean_at (x0 : (⟨S4x2048, .f32⟩ : BufTy).Contents (Elt Ideal)) (i k : Fin 2048) :
    val_main_v61 (F := Ideal) x0 (ix2 i k)
      = Ideal.div (Ideal.ofBits .f32 0x00000000#32 + ∑ b : Fin 4, Cert.Spec.violE x0 b i k)
          (Ideal.ofBits .f32 0x40800000#32) := by
  rw [val_main_v61_apply, val_main_v59_apply, val_main_cst_11_apply, val_main_v60_apply, val_main_cst_12_apply]
  have h : ∀ b : Fin 4, val_main_v58 (F := Ideal) x0 (idx_main_v59 (ix2 i k) b) = Cert.Spec.violE x0 b i k := fun b => by
    have hb : idx_main_v59 (ix2 i k) b = ix3 b i k := by
      funext a
      match a with
      | ⟨0, _⟩ => rfl
      | ⟨1, _⟩ => rfl
      | ⟨2, _⟩ => rfl
    rw [hb, viol_at]
  simp only [h]
  rfl

/-- The summand at (i, k): weight times batch mean. -/
theorem term_at (x0 : (⟨S4x2048, .f32⟩ : BufTy).Contents (Elt Ideal)) (x4 : (⟨S4x2048x2048, .i32⟩ : BufTy).Contents (Elt Ideal))
    (i k : Fin 2048) :
    val_main_v62 (F := Ideal) x0 x4 (ix2 i k)
      = Cert.Spec.wE x4 i k * Ideal.div (Ideal.ofBits .f32 0x00000000#32 + ∑ b : Fin 4, Cert.Spec.violE x0 b i k)
          (Ideal.ofBits .f32 0x40800000#32) := by
  rw [val_main_v62_apply, val_main_v50_apply, mult_at, ind_at, mean_at]
  rfl

/-- The third result as a pair sum. -/
theorem v64_eq (x0 : (⟨S4x2048, .f32⟩ : BufTy).Contents (Elt Ideal)) (x4 : (⟨S4x2048x2048, .i32⟩ : BufTy).Contents (Elt Ideal))
    (j : S_.Idx) :
    val_main_v64 (F := Ideal) x0 x4 j
      = Ideal.div (Ideal.ofBits .f32 0x00000000#32 + ∑ i : Fin 2048, ∑ k : Fin 2048,
            Cert.Spec.wE x4 i k * Ideal.div (Ideal.ofBits .f32 0x00000000#32 + ∑ b : Fin 4, Cert.Spec.violE x0 b i k)
              (Ideal.ofBits .f32 0x40800000#32))
          (Ideal.ofBits .f32 0x4EAA6AB0#32) := by
  rw [val_main_v64_apply, val_main_v63_apply, val_main_cst_13_apply, val_main_cst_14_apply, sum_idx2]
  simp only [term_at]
  rfl

/-! ### Every term is a real -/

/-- Under real predicted times every hinge is a real. -/
theorem viol_real (x0 : (⟨S4x2048, .f32⟩ : BufTy).Contents (Elt Ideal)) (hpt : ∀ i, ∃ r : ℝ, x0 i = (r : EReal))
    (b : Fin 4) (i k : Fin 2048) : ∃ v : ℝ, Cert.Spec.violE x0 b i k = (v : EReal) := by
  obtain ⟨e, he⟩ := word_eps_real
  obtain ⟨rk, hk⟩ := hpt (ix2 b k)
  obtain ⟨ri, hi⟩ := hpt (ix2 b i)
  refine ⟨max (e - (rk - ri)) 0, ?_⟩
  unfold Cert.Spec.violE
  rw [he, hk, hi, Ideal.ofBits_zero_f32, ← EReal.coe_sub, ← EReal.coe_sub]
  exact (EReal.coe_strictMono.monotone.map_max (a := e - (rk - ri)) (b := 0)).symm

/-- Every weight is a real: an integer, or zero, times 0 or 1. -/
theorem weight_real (x4 : (⟨S4x2048x2048, .i32⟩ : BufTy).Contents (Elt Ideal)) (i k : Fin 2048) :
    ∃ w : ℝ, Cert.Spec.wE x4 i k = (w : EReal) := by
  unfold Cert.Spec.wE Cert.Spec.mult Cert.Spec.ind Scalar.select
  by_cases h : IntOp.cmpi .sge (Cert.Spec.gap i k) 2#32 = 1
  · rw [if_pos h]; exact ⟨_, (EReal.coe_mul _ _).symm⟩
  · rw [if_neg h]; exact ⟨0, by rw [zero_mul, EReal.coe_zero]⟩

/-! ### The third result -/

/-- The reference's third result is the specification's transitivity loss. -/
theorem ref_trans (x0 : (⟨S4x2048, .f32⟩ : BufTy).Contents (Elt Ideal)) (x4 : (⟨S4x2048x2048, .i32⟩ : BufTy).Contents (Elt Ideal))
    (hpt : ∀ i, ∃ r : ℝ, x0 i = (r : EReal)) :
    val_main_v64 (F := Ideal) x0 x4 = fun _ => Cert.Spec.transLoss x0 x4 := by
  funext j
  rw [v64_eq]
  unfold Cert.Spec.transLoss Cert.Spec.transSum
  have hV := viol_real x0 hpt
  have hW := weight_real x4
  choose V hV using hV
  choose W hW using hW
  simp only [hV, hW]
  rw [word_four, word_choose, word_four_choose, Ideal.ofBits_zero_f32]
  rw [Ideal.div_coe (by norm_num : (1429559296 : ℝ) ≠ 0), Ideal.div_coe (by norm_num : (5718237184 : ℝ) ≠ 0)]
  simp only [Ideal.div_coe (by norm_num : (4 : ℝ) ≠ 0), zero_add, ← coe_sum, ← EReal.coe_mul]
  rw [real_identity W V]

end Cert.RefSide

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.PreFacts.lean ====
/-
  The precondition "all inputs finite, the mask entries 0 or 1", read back as facts about the
  input arrays, at the ideal float values (every float an extended real).

  The precondition is printed as a conjunction (an "and" of one-bit words) of four tests. For
  each of the three float arrays x the test is the conjunction over all indices of |x i| < +∞,
  printed as a reduction by "and" of the comparison bits from the constant 1 into a result with
  one index. For the integer array m the test is the conjunction over all indices of
  (m i = 0) or (m i = 1), printed the same way. If the whole conjunction is 1 then each test is
  1, so every float entry is a real number and every entry of m is the word 0 or the word 1.
-/
import proofs.«118790_j42803644072824_2_alg».proof.Pre_finite_inputs
import proofs.«118790_j42803644072824_2_alg».proof.Proof.Gen.Pre_finite_inputs
import proofs.«118790_j42803644072824_2_alg».proof.Proof.LibFinite
import Idealize.ShloMosaic.Lib.ReduceAll
import Idealize.ShloMosaic.Lib.ValueIdx

noncomputable section

namespace Cert.PreFacts

open Idealize.ShloMosaic

/-- One entry of the integer test: if the "or" of the two comparison bits x = 0, x = 1 is 1 then
    x is the word 0 or the word 1. -/
theorem zero_or_one_of_bits (x : BitVec 32)
    (h : IntOp.ori (IntOp.cmpi .eq x 0#32) (IntOp.cmpi .eq x 1#32) = 1#1) : x = 0#32 ∨ x = 1#32 := by
  by_cases h0 : x = 0#32
  · exact Or.inl h0
  · by_cases h1 : x = 1#32
    · exact Or.inr h1
    · exfalso
      have e0 : (x == 0#32) = false := beq_eq_false_iff_ne.mpr h0
      have e1 : (x == 1#32) = false := beq_eq_false_iff_ne.mpr h1
      simp [IntOp.cmpi, IntOp.ori, e0, e1] at h

/-- The precondition read back: every entry of the three float arrays is a real number, and every
    entry of the first integer array is 0 or 1. -/
theorem facts_of_pre [Cert.Pre_finite_inputs.Facts]
    (a0 : FVec Ideal Cert.Pre_finite_inputs.S4x2048 .f32) (a1 : FVec Ideal Cert.Pre_finite_inputs.S4x2048x2048 .f32)
    (a2 : FVec Ideal Cert.Pre_finite_inputs.S4x2048 .f32) (a3 a4 : IVec Cert.Pre_finite_inputs.S4x2048x2048 32)
    (h : Cert.Pre_finite_inputs.fn (F := Ideal) a0 a1 a2 a3 a4 = (fun _ => 1#1)) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, a3 i = 0#32 ∨ a3 i = 1#32) := by
  have h0 := congrFun h ValueIdx.ix0
  -- the result is the "and" of the first three tests with the integer test
  obtain ⟨h13, h19⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, fun i => ?_⟩
  · exact Cert.Finite.real_of_all a0 _ (fun _ => rfl) _ Cert.Pre_finite_inputs.Facts.reducesTo_S4x2048_S_d0_1
      Cert.Pre_finite_inputs.Facts.h_S_ ValueIdx.ix0 h3 i
  · exact Cert.Finite.real_of_all a1 _ (fun _ => rfl) _ Cert.Pre_finite_inputs.Facts.reducesTo_S4x2048x2048_S_d0_1_2
      Cert.Pre_finite_inputs.Facts.h_S_ ValueIdx.ix0 h7 i
  · exact Cert.Finite.real_of_all a2 _ (fun _ => rfl) _ Cert.Pre_finite_inputs.Facts.reducesTo_S4x2048_S_d0_1
      Cert.Pre_finite_inputs.Facts.h_S_ ValueIdx.ix0 h12 i
  · -- every bit of the reduced array is 1; at the index i that bit is the "or" of the two comparisons
    have hi := Host.reduce_andi_all _ _ Cert.Pre_finite_inputs.Facts.reducesTo_S4x2048x2048_S_d0_1_2
      Cert.Pre_finite_inputs.Facts.h_S_ ValueIdx.ix0 h19 i
    exact zero_or_one_of_bits (a3 i) hi

end Cert.PreFacts

end
-- ==== Proof.lean ====
/-
  A temporal-consistency loss computed two ways: by a tiled streaming kernel with three accumulators and a short host
  tail, and by plain array operations. Both return four numbers — an ordering loss, a causality loss, a transitivity
  loss and their weighted total — and at the ideal float values (every float an extended real, every operation exact)
  the two programs return the same four numbers, whenever every float input is finite and the causal labels are 0 or 1.

  * Ordering: the hinge max (1/2 − (p_i − p_j)·[t_i < t_j]) 0 summed over every batch and pair of positions, over 2^24.
    The kernel sums it tile by tile and row tile by row tile; the two sides differ only in the order of a finite sum.
  * Causality: the binary cross-entropy with the logarithm clamped at −100. The reference writes it as
    −(t·L(p) + (1 − t)·L(1 − p)); the kernel takes the one logarithm the label selects and negates each term. For a label
    t ∈ {0, 1} the two terms agree (0·x = 0 and 1·x = x on the extended reals), and for a finite probability every
    clamped logarithm is a real number, so the negation moves through the finite sum.
  * Transitivity: the pair weight (k − i − 1)·[k − i ≥ 2]·[precedence > 0] times the hinge max (1/10 − (p_k − p_i)) 0.
    The reference averages the hinge over the four batches before weighting and divides by C(2048, 3); the kernel sums
    weight × hinge over batches and pairs and divides by 4·C(2048, 3). For finite times every term is a real number and
    the two are equal by distributivity.
  * The total is the same weighted sum of the three on both sides.

  The modules: Spec (the four losses as sums), the kernel side (KOut, KPay, KBlocks, KAcc, KFinal, KTail, KSum, KValue:
  what one grid point adds, what the accumulators hold after each point, what the output arrays hold, the host tail,
  the re-tiling of the sums), the reference side (RefOrdCaus, RefTrans) and PreFacts (the precondition read back).
-/
import proofs.«118790_j42803644072824_2_alg».proof.Defs
import proofs.«118790_j42803644072824_2_alg».proof.Proof.Gen.Kernel
import proofs.«118790_j42803644072824_2_alg».proof.Proof.Gen.Kernel.Skeleton
import proofs.«118790_j42803644072824_2_alg».proof.Proof.Gen.Kernel.Launch
import proofs.«118790_j42803644072824_2_alg».proof.Proof.Gen.Kernel.Points
import proofs.«118790_j42803644072824_2_alg».proof.Proof.Gen.Kernel.Frame
import proofs.«118790_j42803644072824_2_alg».proof.Proof.Gen.KernelIdeal
import proofs.«118790_j42803644072824_2_alg».proof.Proof.Gen.KernelIdeal.Skeleton
import proofs.«118790_j42803644072824_2_alg».proof.Proof.Gen.KernelIdeal.Launch
import proofs.«118790_j42803644072824_2_alg».proof.Proof.Gen.KernelIdeal.Points
import proofs.«118790_j42803644072824_2_alg».proof.Proof.Gen.KernelIdeal.Frame
import proofs.«118790_j42803644072824_2_alg».proof.Proof.Gen.ReferenceIdeal
import proofs.«118790_j42803644072824_2_alg».proof.Proof.Gen.ReferenceIdeal.Run
import proofs.«118790_j42803644072824_2_alg».proof.Proof.Gen.ReferenceIdeal.Read
import proofs.«118790_j42803644072824_2_alg».proof.Proof.Gen.Pre_finite_inputs
import proofs.«118790_j42803644072824_2_alg».proof.Proof.KValue
import proofs.«118790_j42803644072824_2_alg».proof.Proof.RefOrdCaus
import proofs.«118790_j42803644072824_2_alg».proof.Proof.RefTrans
import proofs.«118790_j42803644072824_2_alg».proof.Proof.PreFacts
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the ideal float values. -/
theorem frame_ki : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The kernel's text is read at the ideal float values unchanged: nothing was rewritten. -/
theorem preserves : Cert.preserves_Kernel_KernelIdeal := trivial

/-- Both programs end with the specification's four losses of arguments that agree. -/
theorem algebraic : Cert.algebraic_KernelIdeal_ReferenceIdeal := by
  intro m ρ m' ρ' hpre hagree
  refine ⟨fun c _ => Cert.Spec.ordLoss (Cert.KernelIdeal.KSum.ptOf m c) (Cert.KernelIdeal.KSum.ttOf m c),
    fun c _ => Cert.Spec.causLoss (Cert.KernelIdeal.KSum.pcOf m c) (Cert.KernelIdeal.KSum.tcOf m c),
    fun c _ => Cert.Spec.transLoss (Cert.KernelIdeal.KSum.ptOf m c) (Cert.KernelIdeal.KSum.tpOf m c),
    fun c _ => Cert.Spec.totalLoss (Cert.KernelIdeal.KSum.ptOf m c) (Cert.KernelIdeal.KSum.ttOf m c) (Cert.KernelIdeal.KSum.pcOf m c)
      (Cert.KernelIdeal.KSum.tcOf m c) (Cert.KernelIdeal.KSum.tpOf m c),
    Cert.KernelIdeal.KValue.run_kernel m ρ, ?_⟩
  refine (θ_run Cert.ReferenceIdeal.defs _ _).mono (fun r h c => ?_) (Cert.ReferenceIdeal.Value.run (F := Ideal) m' ρ')
  obtain ⟨h16, h32, h64, h69, hargs⟩ := h c
  obtain ⟨a0, a1, a2, a3, a4⟩ := hagree c
  obtain ⟨hpt, hpc, _, htc⟩ := Cert.PreFacts.facts_of_pre _ _ _ _ _ (hpre c)
  refine ⟨h16.trans ?_, h32.trans ?_, h64.trans ?_, h69.trans ?_, hargs⟩
  · refine (Cert.ReferenceIdeal.Read.val_main_v16_eq (F := Ideal) _ _).trans ?_
    rw [a0, a2]
    exact Cert.RefSide.ref_ord _ _
  · refine (Cert.ReferenceIdeal.Read.val_main_v32_eq (F := Ideal) _ _).trans ?_
    rw [a1, a3]
    exact Cert.RefSide.ref_caus _ _ hpc htc
  · refine (Cert.ReferenceIdeal.Read.val_main_v64_eq (F := Ideal) _ _).trans ?_
    rw [a0, a4]
    exact Cert.RefSide.ref_trans _ _ hpt
  · refine (Cert.ReferenceIdeal.Read.val_main_v69_eq (F := Ideal) _ _ _ _ _).trans ?_
    rw [a0, a1, a2, a3, a4]
    funext i
    rw [Cert.RefSide.ref_total, Cert.RefSide.ref_ord, Cert.RefSide.ref_caus _ _ hpc htc, Cert.RefSide.ref_trans _ _ hpt]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
